-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S6400000 : Shape := ⟨1, ![6400000]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel

variable [Facts]

def fn {F : FTy → Type} [FloatOps F] (main_arg0 : FVec F S100000x8 .f32) (main_arg1 : IVec S6400000 32) (main_arg2 : IVec S6400000 32) (main_arg3 : IVec S6400000 32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  main_v3
-- ==== Kernel.lean ====
abbrev S100000x8 : Shape := ⟨2, ![100000, 8]⟩
abbrev S6400000 : Shape := ⟨1, ![6400000]⟩
abbrev S3 : Shape := ⟨1, ![3]⟩
abbrev S100000x2 : Shape := ⟨2, ![100000, 2]⟩
abbrev S_ : Shape := ⟨0, ![]⟩
abbrev S6400000x1 : Shape := ⟨2, ![6400000, 1]⟩
abbrev S6400000x2 : Shape := ⟨2, ![6400000, 2]⟩
abbrev S3x1 : Shape := ⟨2, ![3, 1]⟩
abbrev S6400000x9 : Shape := ⟨2, ![6400000, 9]⟩
abbrev S4096x2 : Shape := ⟨2, ![4096, 2]⟩
abbrev S4096x9 : Shape := ⟨2, ![4096, 9]⟩
abbrev S2x4096 : Shape := ⟨2, ![2, 4096]⟩
abbrev S1x4096 : Shape := ⟨2, ![1, 4096]⟩
abbrev S3x4096 : Shape := ⟨2, ![3, 4096]⟩
abbrev S9x4096 : Shape := ⟨2, ![9, 4096]⟩

abbrev nBuf : Space → Nat
  | .hbm => 26
  | .vmem => 7
  | .smem => 0
  | _ => 0

abbrev bufTy : (tb : Table) → Fin (tcTables nBuf tb) → BufTy
  | .hbm, ⟨0, _⟩ => ⟨S100000x8, .f32⟩
  | .hbm, ⟨1, _⟩ => ⟨S6400000, .i32⟩
  | .hbm, ⟨2, _⟩ => ⟨S6400000, .i32⟩
  | .hbm, ⟨3, _⟩ => ⟨S6400000, .i32⟩
  | .hbm, ⟨4, _⟩ => ⟨S3, .f32⟩
  | .hbm, ⟨5, _⟩ => ⟨S100000x2, .f32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S_, .i32⟩
  | .hbm, ⟨10, _⟩ => ⟨S6400000, .i32⟩
  | .hbm, ⟨11, _⟩ => ⟨S6400000, .i32⟩
  | .hbm, ⟨12, _⟩ => ⟨S6400000, .i32⟩
  | .hbm, ⟨13, _⟩ => ⟨S6400000x1, .i32⟩
  | .hbm, ⟨14, _⟩ => ⟨S6400000x2, .f32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000x2, .f32⟩
  | .hbm, ⟨24, _⟩ => ⟨S3x1, .f32⟩
  | .hbm, ⟨25, _⟩ => ⟨S6400000x9, .f32⟩
  | .local _ .vmem, ⟨0, _⟩ => ⟨S4096x2, .f32⟩
  | .local _ .vmem, ⟨1, _⟩ => ⟨S4096x2, .f32⟩
  | .local _ .vmem, ⟨2, _⟩ => ⟨S4096x2, .f32⟩
  | .local _ .vmem, ⟨3, _⟩ => ⟨S4096x2, .f32⟩
  | .local _ .vmem, ⟨4, _⟩ => ⟨S3x1, .f32⟩
  | .local _ .vmem, ⟨5, _⟩ => ⟨S4096x9, .f32⟩
  | .local _ .vmem, ⟨6, _⟩ => ⟨S4096x9, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![1563], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S100000x8_S100000x2_0_0 : S100000x8.Slices ![0, 0] S100000x2
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S3_S3x1 : S3.ShapeCasts S3x1
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  transposes_S4096x2_p1_0_S2x4096 : S4096x2.Transposes [1, 0] S2x4096
  slices_S2x4096_o0_0_S1x4096 : S2x4096.Slices ![0, 0] S1x4096
  slices_S2x4096_o1_0_S1x4096 : S2x4096.Slices ![1, 0] S1x4096
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S1x4096_S3x4096 : S1x4096.Broadcasts S3x4096
  broadcasts_S3x1_S3x4096 : S3x1.Broadcasts S3x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  concatenates_S1x4096_S1x4096_S1x4096_S1x4096_S1x4096_S1x4096_S1x4096_S1x4096_S1x4096_S9x4096_d0 : Shape.Concatenates [S1x4096, S1x4096, S1x4096, S1x4096, S1x4096, S1x4096, S1x4096, S1x4096, S1x4096] S9x4096 0
  transposes_S9x4096_p1_0_S4096x9 : S9x4096.Transposes [1, 0] S4096x9
  inb_S4096x9_S4096x9_0_0 : ∀ a, (![0, 0] : Fin 2 → Nat) a + S4096x9.size a ≤ S4096x9.size a
  h_S4096x9 : 0 < S4096x9.numel
  gather_S100000x2_S6400000x1_S6400000x2_1_0_n_n_0_1_12_wf : GatherDims.WF S100000x2 S6400000x1 S6400000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x2.size a < S6400000x2.size a
  hwx0_0 : ∀ i : grid0.Coords, EltTy.bits .f32 = 32 ∨ (Rect.unit (s := S6400000x2) (fun a => cc0_transform_0 i a * S4096x2.size a) (fun a => (Pipeline.Clip.of (cc0_transform_0 i a) (S4096x2.size a) (S6400000x2.size a)).extent (S4096x2.size a)) fun a => Pipeline.Clip.inb (Pipeline.Clip.ok_of (hstart0_0 i a))).WholeWords (EltTy.packing .f32)
  hwxs0_0 : ∀ i : grid0.Coords, EltTy.bits .f32 = 32 ∨ (Rect.unit (s := S4096x2) (fun _ => 0) (fun a => (Pipeline.Clip.of (cc0_transform_0 i a) (S4096x2.size a) (S6400000x2.size a)).extent (S4096x2.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x2.size a < S6400000x2.size a
  hwx0_1 : ∀ i : grid0.Coords, EltTy.bits .f32 = 32 ∨ (Rect.unit (s := S6400000x2) (fun a => cc0_transform_1 i a * S4096x2.size a) (fun a => (Pipeline.Clip.of (cc0_transform_1 i a) (S4096x2.size a) (S6400000x2.size a)).extent (S4096x2.size a)) fun a => Pipeline.Clip.inb (Pipeline.Clip.ok_of (hstart0_1 i a))).WholeWords (EltTy.packing .f32)
  hwxs0_1 : ∀ i : grid0.Coords, EltTy.bits .f32 = 32 ∨ (Rect.unit (s := S4096x2) (fun _ => 0) (fun a => (Pipeline.Clip.of (cc0_transform_1 i a) (S4096x2.size a) (S6400000x2.size a)).extent (S4096x2.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1.size a ≤ S3x1.size a
  hwx0_2 : ∀ i : grid0.Coords, EltTy.bits .f32 = 32 ∨ (Rect.block (s := S3x1) S3x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x9.size a < S6400000x9.size a
  hwx0_3 : ∀ i : grid0.Coords, EltTy.bits .f32 = 32 ∨ (Rect.unit (s := S6400000x9) (fun a => cc0_transform_3 i a * S4096x9.size a) (fun a => (Pipeline.Clip.of (cc0_transform_3 i a) (S4096x9.size a) (S6400000x9.size a)).extent (S4096x9.size a)) fun a => Pipeline.Clip.inb (Pipeline.Clip.ok_of (hstart0_3 i a))).WholeWords (EltTy.packing .f32)
  hwxs0_3 : ∀ i : grid0.Coords, EltTy.bits .f32 = 32 ∨ (Rect.unit (s := S4096x9) (fun _ => 0) (fun a => (Pipeline.Clip.of (cc0_transform_3 i a) (S4096x9.size a) (S6400000x9.size a)).extent (S4096x9.size a)) fun a => (Nat.zero_add _).trans_le (Pipeline.Clip.extent_le (Pipeline.Clip.ok_of (hstart0_3 i a)))).WholeWords (EltTy.packing .f32)

variable [Facts₀]

def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf

abbrev win0_0 : Pipeline.Window sig grid0 :=
  Pipeline.Window.ofSpecClip (Memref.whole main_v7) S4096x2.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v14) S4096x2.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v15) S3x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v16) S4096x9.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x8 : Shape := ⟨2, ![100000, 8]⟩
abbrev S6400000 : Shape := ⟨1, ![6400000]⟩
abbrev S3 : Shape := ⟨1, ![3]⟩
abbrev S_ : Shape := ⟨0, ![]⟩
abbrev S6400000x1 : Shape := ⟨2, ![6400000, 1]⟩
abbrev S6400000x8 : Shape := ⟨2, ![6400000, 8]⟩
abbrev S1x3 : Shape := ⟨2, ![1, 3]⟩
abbrev S6400000x3 : Shape := ⟨2, ![6400000, 3]⟩
abbrev S6400000x3x1 : Shape := ⟨3, ![6400000, 3, 1]⟩
abbrev S6400000x1x3 : Shape := ⟨3, ![6400000, 1, 3]⟩
abbrev S6400000x3x3 : Shape := ⟨3, ![6400000, 3, 3]⟩
abbrev S6400000x9 : Shape := ⟨2, ![6400000, 9]⟩

abbrev nBuf : Space → Nat
  | .hbm => 61
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S6400000, .i32⟩
  | .hbm, ⟨2, _⟩ => ⟨S6400000, .i32⟩
  | .hbm, ⟨3, _⟩ => ⟨S6400000, .i32⟩
  | .hbm, ⟨4, _⟩ => ⟨S3, .f32⟩
  | .hbm, ⟨5, _⟩ => ⟨S_, .i32⟩
  | .hbm, ⟨6, _⟩ => ⟨S6400000, .i32⟩
  | .hbm, ⟨7, _⟩ => ⟨S6400000, .i1⟩
  | .hbm, ⟨8, _⟩ => ⟨S_, .i32⟩
  | .hbm, ⟨9, _⟩ => ⟨S6400000, .i32⟩
  | .hbm, ⟨10, _⟩ => ⟨S6400000, .i32⟩
  | .hbm, ⟨11, _⟩ => ⟨S6400000, .i32⟩
  | .hbm, ⟨12, _⟩ => ⟨S6400000x1, .i32⟩
  | .hbm, ⟨13, _⟩ => ⟨S6400000x8, .f32⟩
  | .hbm, ⟨14, _⟩ => ⟨S_, .i32⟩
  | .hbm, ⟨15, _⟩ => ⟨S6400000, .i32⟩
  | .hbm, ⟨16, _⟩ => ⟨S6400000, .i1⟩
  | .hbm, ⟨17, _⟩ => ⟨S_, .i32⟩
  | .hbm, ⟨18, _⟩ => ⟨S6400000, .i32⟩
  | .hbm, ⟨19, _⟩ => ⟨S6400000, .i32⟩
  | .hbm, ⟨20, _⟩ => ⟨S6400000, .i32⟩
  | .hbm, ⟨21, _⟩ => ⟨S6400000x1, .i32⟩
  | .hbm, ⟨22, _⟩ => ⟨S6400000x8, .f32⟩
  | .hbm, ⟨23, _⟩ => ⟨S6400000x1, .f32⟩
  | .hbm, ⟨24, _⟩ => ⟨S6400000, .f32⟩
  | .hbm, ⟨25, _⟩ => ⟨S6400000x1, .f32⟩
  | .hbm, ⟨26, _⟩ => ⟨S6400000, .f32⟩
  | .hbm, ⟨27, _⟩ => ⟨S6400000, .f32⟩
  | .hbm, ⟨28, _⟩ => ⟨S6400000x1, .f32⟩
  | .hbm, ⟨29, _⟩ => ⟨S6400000, .f32⟩
  | .hbm, ⟨30, _⟩ => ⟨S6400000x1, .f32⟩
  | .hbm, ⟨31, _⟩ => ⟨S6400000, .f32⟩
  | .hbm, ⟨32, _⟩ => ⟨S6400000, .f32⟩
  | .hbm, ⟨33, _⟩ => ⟨S6400000x1, .f32⟩
  | .hbm, ⟨34, _⟩ => ⟨S1x3, .f32⟩
  | .hbm, ⟨35, _⟩ => ⟨S6400000x3, .f32⟩
  | .hbm, ⟨36, _⟩ => ⟨S6400000x3, .f32⟩
  | .hbm, ⟨37, _⟩ => ⟨S6400000x3, .f32⟩
  | .hbm, ⟨38, _⟩ => ⟨S6400000x3, .f32⟩
  | .hbm, ⟨39, _⟩ => ⟨S6400000x3, .f32⟩
  | .hbm, ⟨40, _⟩ => ⟨S_, .f32⟩
  | .hbm, ⟨41, _⟩ => ⟨S6400000x3, .f32⟩
  | .hbm, ⟨42, _⟩ => ⟨S6400000x3, .f32⟩
  | .hbm, ⟨43, _⟩ => ⟨S6400000x3, .f32⟩
  | .hbm, ⟨44, _⟩ => ⟨S6400000x1, .f32⟩
  | .hbm, ⟨45, _⟩ => ⟨S1x3, .f32⟩
  | .hbm, ⟨46, _⟩ => ⟨S6400000x3, .f32⟩
  | .hbm, ⟨47, _⟩ => ⟨S6400000x3, .f32⟩
  | .hbm, ⟨48, _⟩ => ⟨S6400000x3, .f32⟩
  | .hbm, ⟨49, _⟩ => ⟨S6400000x3, .f32⟩
  | .hbm, ⟨50, _⟩ => ⟨S6400000x3, .f32⟩
  | .hbm, ⟨51, _⟩ => ⟨S_, .f32⟩
  | .hbm, ⟨52, _⟩ => ⟨S6400000x3, .f32⟩
  | .hbm, ⟨53, _⟩ => ⟨S6400000x3, .f32⟩
  | .hbm, ⟨54, _⟩ => ⟨S6400000x3, .f32⟩
  | .hbm, ⟨55, _⟩ => ⟨S6400000x3x1, .f32⟩
  | .hbm, ⟨56, _⟩ => ⟨S6400000x1x3, .f32⟩
  | .hbm, ⟨57, _⟩ => ⟨S6400000x3x3, .f32⟩
  | .hbm, ⟨58, _⟩ => ⟨S6400000x3x3, .f32⟩
  | .hbm, ⟨59, _⟩ => ⟨S6400000x3x3, .f32⟩
  | .hbm, ⟨60, _⟩ => ⟨S6400000x9, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x8_S6400000x1_0_0 : S6400000x8.Slices ![0, 0] S6400000x1
  shapeCasts_S6400000x1_S6400000 : S6400000x1.ShapeCasts S6400000
  slices_S6400000x8_S6400000x1_0_1 : S6400000x8.Slices ![0, 1] S6400000x1
  bcast_S3_S1x3_1 : S3.BroadcastsInDim S1x3 (![1] : Fin 1 → Fin S1x3.rank)
  bcast_S6400000x1_S6400000x3_0_1 : S6400000x1.BroadcastsInDim S6400000x3 (![0, 1] : Fin 2 → Fin S6400000x3.rank)
  bcast_S1x3_S6400000x3_0_1 : S1x3.BroadcastsInDim S6400000x3 (![0, 1] : Fin 2 → Fin S6400000x3.rank)
  bcast_S_S6400000x3 : S_.BroadcastsInDim S6400000x3 (![] : Fin 0 → Fin S6400000x3.rank)
  bcast_S6400000x3_S6400000x3x1_0_1 : S6400000x3.BroadcastsInDim S6400000x3x1 (![0, 1] : Fin 2 → Fin S6400000x3x1.rank)
  bcast_S6400000x3_S6400000x1x3_0_2 : S6400000x3.BroadcastsInDim S6400000x1x3 (![0, 2] : Fin 2 → Fin S6400000x1x3.rank)
  bcast_S6400000x3x1_S6400000x3x3_0_1_2 : S6400000x3x1.BroadcastsInDim S6400000x3x3 (![0, 1, 2] : Fin 3 → Fin S6400000x3x3.rank)
  bcast_S6400000x1x3_S6400000x3x3_0_1_2 : S6400000x1x3.BroadcastsInDim S6400000x3x3 (![0, 1, 2] : Fin 3 → Fin S6400000x3x3.rank)
  shapeCasts_S6400000x3x3_S6400000x9 : S6400000x3x3.ShapeCasts S6400000x9
  gather_S100000x8_S6400000x1_S6400000x8_1_0_n_n_0_1_18_wf : GatherDims.WF S100000x8 S6400000x1 S6400000x8 [1] [0] [] [0] [] 1 ![1, 8]

variable [Facts₀]

def gather_S100000x8_S6400000x1_S6400000x8_1_0_n_n_0_1_18 : GatherDims S100000x8 S6400000x1 S6400000x8 where
  offsetDims := [1]
  collapsedSliceDims := [0]
  operandBatchingDims := []
  startIndicesBatchingDims := []
  startIndexMap := [0]
  indexVectorDim := 1
  sliceSizes := ![1, 8]
  wf := gather_S100000x8_S6400000x1_S6400000x8_1_0_n_n_0_1_18_wf

class Facts : Prop extends Facts₀ where

variable [Facts]
-- ==== Proof.StoredK.lean ====
/-
  What the kernel's body stores into its result block, as one pure function of the three blocks it loads: the
  source nodes' coordinates (4096 rows, 2 columns), the destination nodes' coordinates (the same shape) and the three
  centres (a column of 3). The body's arithmetic is the generated skeleton's payloads; this module only composes
  them in the order the body does (its first load is the destination block, its second the source block).
-/
import proofs.«127756_j76991583748342_2_alg».proof.Proof.Gen.Kernel.Skeleton

noncomputable section

namespace Cert.Kernel.Pay

open Cert.Kernel Cert.Kernel.Gen
open Idealize.ShloMosaic Idealize.SL.Sem

variable {F : FTy → Type} [FloatOps F] [Cert.Kernel.Facts]

/-- The stored block from the source block, the destination block and the centres' block. -/
def stored (src dst : Vec F S4096x2 .f32) (cen : Vec F S3x1 .f32) : FVec F S4096x9 .f32 :=
  k0_pay1 (k0_pay4 dst src cen) (k0_pay5 dst src cen) (k0_pay6 dst src cen) (k0_pay7 dst src cen) (k0_pay8 dst src cen)
    (k0_pay9 dst src cen) (k0_pay10 dst src cen) (k0_pay11 dst src cen) (k0_pay12 dst src cen)

end Cert.Kernel.Pay

end
-- ==== Proof.BodyK.lean ====
/-
  The kernel's run, point by point.

  The grid has 1563 points; point `t` works on edges `4096·t … 4096·t + 4095`. Its two input blocks (the source
  and the destination nodes' coordinates, 4096 rows of 2) and its result block (4096 rows of 9) are cut at the
  arrays' end: 6400000 = 1562·4096 + 2048, so the last point's blocks have only 2048 rows inside the arrays. A
  fetch of a cut block lands those rows in the staging buffer's leading rows and leaves the other rows at words
  nothing names; the body computes on all 4096 rows, and the write-back writes the leading rows only.

  The body is row-wise: row `r` of what it stores depends on row `r` of the two input blocks and on the three
  centres (`RowLocal`, proved where the body's arithmetic is read at an index). Hence the rows that are written back
  do not depend on the unnamed words, and the proof data can name what each buffer holds on the rows inside the
  array: the inputs' blocks, and for the result what the body stores when the unnamed rows are read as zero.

  From the body's triple (two whole loads of the coordinate blocks, the load of the centres, one whole store) the
  library's frame run gives: every weakly fair execution terminates without a fault, the result array ends at what
  the write-backs left (`Dat.arrAt`), and every other array ends as the region found it.
-/
import proofs.«127756_j76991583748342_2_alg».proof.Proof.Gen.Kernel.Frame
import proofs.«127756_j76991583748342_2_alg».proof.Proof.Gen.Kernel.Skeleton
import proofs.«127756_j76991583748342_2_alg».proof.Proof.StoredK
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The whole coordinate block, the whole centres' column and the whole result block, as the body's accesses name them. -/
abbrev r2 : Rect S4096x2 := Rect.unit (s := S4096x2) ![0, 0] S4096x2.size inb_S4096x2_S4096x2_0_0
abbrev r31 : Rect S3x1 := Rect.unit (s := S3x1) ![0, 0] S3x1.size inb_S3x1_S3x1_0_0
abbrev r9 : Rect S4096x9 := Rect.unit (s := S4096x9) ![0, 0] S4096x9.size inb_S4096x9_S4096x9_0_0

/-- What the result's staging buffer holds after the body, from what the three input buffers hold: the one store's
    value, read back through the buffer. -/
def out0_3 (x0 x1 : Vec F S4096x2 .f32) (x2 : Vec F S3x1 .f32) : Vec F S4096x9 .f32 :=
  View.canon [⟨r9, Pay.stored (View.ld x0 r2) (View.ld x1 r2) (View.ld x2 r31)⟩]

/-- The one store covers the buffer. -/
theorem cover0_3 (p0 : Vec F S4096x9 .f32) (y : S4096x9.Idx) :
    ∃ pc ∈ ([⟨r9, p0⟩] : List (View.Piece (Elt F) S4096x9 .f32)), y ∈ pc.1.set :=
  View.cover_of_tiled [⟨r9, p0⟩] S4096x9.size (by rfl) y

/-- The accesses are at offset zero and of the buffers' own sizes: the buffer after the body holds the stored value itself. -/
theorem out0_3_eq (x0 x1 : Vec F S4096x2 .f32) (x2 : Vec F S3x1 .f32) : out0_3 x0 x1 x2 = Pay.stored x0 x1 x2 := by
  have hz : (![0, 0] : Fin 2 → Nat) = fun _ => 0 := funext fun a => by fin_cases a <;> rfl
  unfold out0_3
  rw [View.canon_unit_zero hz]
  simp only [View.ld_unit_zero (S := S4096x2) hz, View.ld_unit_zero (S := S3x1) hz]

set_option maxHeartbeats 1000000 in
/-- The body on whole staging memrefs — the three inputs' at contents `x0`, `x1`, `x2`, the result's at anything — runs
    to the continuation with the inputs' as they were and the result's at `out0_3 x0 x1 x2`. -/
theorem sound_kernel (c : Dev nD) (E : Set ℕ) (i : grid0.Coords)
    (arg1 : Memref sig .tc .vmem S4096x2 .f32) (harg1 : arg1.IsWhole) (arg2 : Memref sig .tc .vmem S4096x2 .f32) (harg2 : arg2.IsWhole)
    (arg3 : Memref sig .tc .vmem S3x1 .f32) (harg3 : arg3.IsWhole) (arg4 : Memref sig .tc .vmem S4096x9 .f32) (harg4 : arg4.IsWhole)
    (x0 x1 : Vec F S4096x2 .f32) (x2 : Vec F S3x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fuzzy_kernel i arg1 harg1 arg2 harg2 arg3 harg3 arg4 harg4) K := by
  simp only [cc0__fuzzy_kernel_eq_skeleton]; unfold cc0__fuzzy_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The word the proof data writes on a cut block's rows past the array's end: zero. Nothing reads it. -/
def zw : Elt F .f32 := Scalar.ofBits .f32 0x00000000#32

/-- The source and destination coordinate blocks at point `t`: their rows inside the arrays. -/
def srcBlk (c : Dev nD) (t : Fin cfg0.N) : (win0_0.xblock (grid0.coords t)).Idx → Elt F .f32 := iblk m c 0 t
def dstBlk (c : Dev nD) (t : Fin cfg0.N) : (win0_1.xblock (grid0.coords t)).Idx → Elt F .f32 := iblk m c 1 t
/-- The same, filled out to 4096 rows with zeros. -/
def src8 (c : Dev nD) (t : Fin cfg0.N) : S4096x2.Idx → Elt F .f32 := win0_0.fill (grid0.coords t) (fun _ => zw) (srcBlk m c t)
def dst8 (c : Dev nD) (t : Fin cfg0.N) : S4096x2.Idx → Elt F .f32 := win0_1.fill (grid0.coords t) (fun _ => zw) (dstBlk m c t)
/-- The centres' column. -/
def cen3 (c : Dev nD) (t : Fin cfg0.N) : S3x1.Idx → Elt F .f32 := iblk m c 2 t

/-- The proof data of the pipeline on core `c`: the arrays as the region finds them; after the body at point `t` the
    inputs' buffers at their blocks (zeros past the array's end) and the result's at what the body stores from those;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => src8 m c t
    | ⟨1, _⟩ => dst8 m c t
    | ⟨2, _⟩ => iblk m c 2 t
    | ⟨3, _⟩ => out0_3 (src8 m c t) (dst8 m c t) (cen3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = src8 m c t := by dsimp only [dats]
theorem after0_1 (c : Dev nD) (t : Fin cfg0.N) : (dats m 0 c).after 1 t = dst8 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (src8 m c t) (dst8 m c t) (cen3 m c t) := by dsimp only [dats]

/-- What the body finds: the two coordinate buffers just fetched — the block on the rows inside the array, `d` elsewhere —, -/
theorem before0_0 (c : Dev nD) (t : Fin cfg0.N) (d) :
    (dats m 0 c).before 0 t d = win0_0.fill (grid0.coords t) d (srcBlk m c t) := by
  rw [(dats m 0 c).before_fetched 0 t (fetch0_0 t) d]
  unfold Dat.fetched Dat.blockOf srcBlk iblk; rw [A_eq]; try rfl
theorem before0_1 (c : Dev nD) (t : Fin cfg0.N) (d) :
    (dats m 0 c).before 1 t d = win0_1.fill (grid0.coords t) d (dstBlk m c t) := by
  rw [(dats m 0 c).before_fetched 1 t (fetch0_1 t) d]
  unfold Dat.fetched Dat.blockOf dstBlk iblk; rw [A_eq]; try rfl
/-- the centres' buffer at the centres, fetched at this point or kept from the first, -/
theorem before0_2 (c : Dev nD) (t : Fin cfg0.N) (d) : (dats m 0 c).before 2 t d = iblk m c 2 t :=
  before0_2_of m (dats m 0 c) (A_eq m c 2) (after0_2 m c) t d
/-- the result's buffer at contents nothing names (it was written back at the point before). -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

/-- Row `r` of what the body stores depends on row `r` of the two coordinate blocks only. -/
def RowLocal (F : FTy → Type) [FloatOps F] : Prop :=
  ∀ (src src' dst dst' : Vec F S4096x2 .f32) (cen : Vec F S3x1 .f32) (r : Fin 4096) (k : Fin 9),
    (∀ col : Fin 2, src (ix2 r col) = src' (ix2 r col)) → (∀ col : Fin 2, dst (ix2 r col) = dst' (ix2 r col)) →
    Pay.stored src dst cen (ix2 r k) = Pay.stored src' dst' cen (ix2 r k)

/-- On the rows a transfer moves, a filled block does not depend on what fills it out. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The three cut windows are cut alike: the result block's rows inside its array are the coordinate blocks' rows
    inside theirs, and a coordinate block's two columns are both inside. -/
theorem xsize_3_0 (i : grid0.Coords) : win0_3.xsize i 0 = win0_0.xsize i 0 := rfl
theorem xsize_1_0 (i : grid0.Coords) : win0_1.xsize i 0 = win0_0.xsize i 0 := rfl
theorem xsize_0_1 (i : grid0.Coords) : win0_0.xsize i 1 = 2 := rfl
theorem xsize_1_1 (i : grid0.Coords) : win0_1.xsize i 1 = 2 := rfl

/-- The rows of the stored block that are written back do not depend on the words past the arrays' end. -/
theorem cut_out_congr (hloc : RowLocal F) (i : grid0.Coords) (d0 d0' d1 d1' : S4096x2.Idx → Elt F .f32)
    (g0 : (win0_0.xblock i).Idx → Elt F .f32) (g1 : (win0_1.xblock i).Idx → Elt F .f32) (x2 : Vec F S3x1 .f32) :
    win0_3.cut i (out0_3 (win0_0.fill i d0 g0) (win0_1.fill i d1 g1) x2)
      = win0_3.cut i (out0_3 (win0_0.fill i d0' g0) (win0_1.fill i d1' g1) x2) := by
  funext j
  show out0_3 _ _ _ (win0_3.xinj i j) = out0_3 _ _ _ (win0_3.xinj i j)
  rw [out0_3_eq, out0_3_eq]
  have hj0 : (j 0).val < win0_0.xsize i 0 := (xsize_3_0 i) ▸ (j 0).isLt
  have hr : (j 0).val < 4096 := Nat.lt_of_lt_of_le hj0 (win0_0.xsize_le i 0)
  have hk : (j 1).val < 9 := Nat.lt_of_lt_of_le (j 1).isLt (win0_3.xsize_le i 1)
  have hx : win0_3.xinj i j = ix2 (⟨(j 0).val, hr⟩ : Fin 4096) (⟨(j 1).val, hk⟩ : Fin 9) :=
    funext fun a => Fin.ext (by match a with | ⟨0, _⟩ => rfl | ⟨1, _⟩ => rfl)
  rw [hx]
  refine hloc _ _ _ _ _ _ _ (fun col => ?_) (fun col => ?_)
  · refine fill_eq_of_moved win0_0 i d0 d0' g0 _ ((win0_0.moved_iff i _).mpr fun a => ?_)
    match a with
    | ⟨0, _⟩ => exact hj0
    | ⟨1, _⟩ => show col.val < win0_0.xsize i 1; rw [xsize_0_1]; exact col.isLt
  · refine fill_eq_of_moved win0_1 i d1 d1' g1 _ ((win0_1.moved_iff i _).mpr fun a => ?_)
    match a with
    | ⟨0, _⟩ => exact (xsize_1_0 i) ▸ hj0
    | ⟨1, _⟩ => show col.val < win0_1.xsize i 1; rw [xsize_1_1]; exact col.isLt

/-- A buffer held at contents `X` is held at any contents equal to `X`. -/
theorem owns_of_eq (c : Dev nD) {s : Shape} (M : Memref sig .tc .vmem s .f32) (X Y : s.Idx → Elt F .f32) (h : Y = X) :
    owns (c : Thread nD τ) M fullShare X ⊢ (owns (c : Thread nD τ) M fullShare Y : sProp 𝕄) := by
  subst h; exact BI.Entails.refl _

/-- What the body is called with at point `t` (the library's obligation, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: each cut window's buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point. -/
theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel c Set.univ (grid0.coords t) _ _ _ _ _ _ _ _
    (win0_0.fill (grid0.coords t) d0 (srcBlk m c t)) (win0_1.fill (grid0.coords t) d1 (dstBlk m c t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (src8 m c t) = srcBlk m c t from win0_0.cut_fill _ _ _]
    iexact H0
  isplitl [H1]
  · iexists d1
    rw [show win0_1.cut (grid0.coords t) (dst8 m c t) = dstBlk m c t from win0_1.cut_fill _ _ _]
    iexact H1
  isplitl [H2]; · iexact H2
  · iexists out0_3 (win0_0.fill (grid0.coords t) d0 (srcBlk m c t)) (win0_1.fill (grid0.coords t) d1 (dstBlk m c t)) (iblk m c 2 t)
    have e := win0_3.fill_congr_cut (grid0.coords t) (cut_out_congr hloc (grid0.coords t) d0 (fun _ => zw) d1 (fun _ => zw) (srcBlk m c t) (dstBlk m c t) (iblk m c 2 t))
    change _ ⊢ owns (c : Thread nD τ) (st0_3 t) fullShare (win0_3.fill (grid0.coords t)
      (out0_3 (win0_0.fill (grid0.coords t) d0 (srcBlk m c t)) (win0_1.fill (grid0.coords t) d1 (dstBlk m c t)) (iblk m c 2 t))
      (win0_3.cut (grid0.coords t) (out0_3 (win0_0.fill (grid0.coords t) (fun _ => zw) (srcBlk m c t)) (win0_1.fill (grid0.coords t) (fun _ => zw) (dstBlk m c t)) (iblk m c 2 t))))
    exact owns_of_eq c _ _ _ e

/-- The library's body obligation, at every point. -/
theorem body_obligation (hloc : RowLocal F) (c : Dev nD) :
    BodyObligationLoose (dats (F := F) m 0 c) (defs₀ (F := F)) Variants.none () Set.univ := fun t => by
  rw [bigSep_W0, bigSep_W0]
  exact sound_body m hloc c t

/-! ## The run and the frame -/

set_option backward.isDefEq.respectTransparency.types false in
/-- Every weakly fair execution of @main terminates, the result array ends at what the write-backs left of the
    body's stores and every other unscoped buffer as the region found it. -/
theorem run_main (hloc : RowLocal F) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hloc)

end Cert.Kernel.Body

end
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.Spec.lean ====
/-
  What both programs compute, as one function of the argument arrays.

  An edge `e` has a source node and a destination node, each named by a 32-bit word: a negative word has the number
  of nodes (100000) added to it, and the result, read signed, is clamped into the rows `0 … 99999` of the feature
  table (`rowOf`). Of the table's eight columns only the first two, a node's coordinates, are read. With
  `x₁ = dst.x − src.x` and `x₂ = dst.y − src.y`, the membership of `x` in the fuzzy set centred at `c` is
  `mu x c = exp (−(x − c)² · 2)`, computed as `exp ((0 − (x − c)·(x − c)) · 2)`; the three centres are −1, 0 and 1, and
  rule `k = 3·i + j` of the nine fires with strength `mu x₁ cᵢ · mu x₂ cⱼ`. The result array holds, at row `e` and
  column `k`, rule `k`'s strength on edge `e`.

  `mu` and `entry` are stated over any float instance, one scalar operation at a time, so that the same text
  describes the word-level kernel and the idealized one; `G` is the whole result array at the extended reals.
-/
import Idealize.ShloMosaic.PureOps.Ideal
import Idealize.ShloMosaic.Lib.ValueIdx
import proofs.«127756_j76991583748342_2_alg».proof.Proof.LibGatherRows

noncomputable section

namespace Cert.Spec

open Idealize.ShloMosaic Idealize.ShloMosaic.ValueIdx

variable {F : FTy → Type} [FloatOps F]

/-- The words of the three centres −1, 0, 1. -/
def ctrWord : Fin 3 → BitVec 32 := fun
  | 0 => 0xBF800000#32 | 1 => 0x00000000#32 | 2 => 0x3F800000#32

/-- The membership of `x` in the fuzzy set centred at `c`: `exp ((0 − (x − c)·(x − c)) · 2)`. -/
def mu (x c : F .f32) : F .f32 :=
  FloatOps.exp (FloatOps.mulf (FloatOps.subf (Scalar.ofBits .f32 0x00000000#32)
    (FloatOps.mulf (FloatOps.subf x c) (FloatOps.subf x c))) (Scalar.ofBits .f32 0x40000000#32))

/-- The first factor's centre of rule `k = 3·i + j`: `i`. -/
def ruleI (k : Fin 9) : Fin 3 := ⟨k.val / 3, by omega⟩
/-- The second factor's centre of rule `k = 3·i + j`: `j`. -/
def ruleJ (k : Fin 9) : Fin 3 := ⟨k.val % 3, by omega⟩

/-- One entry of the result from the two coordinates of the source node (`s0`, `s1`), of the destination node
    (`d0`, `d1`) and the centres: rule `k`'s strength. -/
def entry (s0 s1 d0 d1 : F .f32) (ctr : Fin 3 → F .f32) (k : Fin 9) : F .f32 :=
  FloatOps.mulf (mu (FloatOps.subf d0 s0) (ctr (ruleI k))) (mu (FloatOps.subf d1 s1) (ctr (ruleJ k)))

/-- jnp's reading of a negative row number: the number of rows is added. -/
def wrapRow (w : BitVec 32) : BitVec 32 := Scalar.select (IntOp.cmpi .slt w 0#32) (IntOp.addi w 100000#32) w

/-- The row of the feature table a node's word names: wrapped, read signed, clamped into `0 … 99999`. -/
def rowOf (w : BitVec 32) : Fin 100000 := Cert.GatherRows.clampRow 100000 (by decide) (wrapRow w)

/-- The centres as extended reals. -/
def ctr : Fin 3 → Ideal .f32 := fun i => FloatOps.ofBits (F := Ideal) .f32 (ctrWord i)

/-- The result at row `e`, column `k`, from the feature table and the edges' two columns of node words. -/
def at_ (feat : FVec Ideal ⟨2, ![100000, 8]⟩ .f32) (src dst : IVec ⟨1, ![6400000]⟩ 32) (e : Fin 6400000) (k : Fin 9) : Ideal .f32 :=
  entry (F := Ideal)
    (feat (ix2 (rowOf (src (ix1 e))) (0 : Fin 8))) (feat (ix2 (rowOf (src (ix1 e))) (1 : Fin 8)))
    (feat (ix2 (rowOf (dst (ix1 e))) (0 : Fin 8))) (feat (ix2 (rowOf (dst (ix1 e))) (1 : Fin 8))) ctr k

/-- The whole result array. -/
def G (feat : FVec Ideal ⟨2, ![100000, 8]⟩ .f32) (src dst : IVec ⟨1, ![6400000]⟩ 32) : FVec Ideal ⟨2, ![6400000, 9]⟩ .f32 :=
  fun j => at_ feat src dst ⟨(j 0).val, idx2_lt0 j⟩ ⟨(j 1).val, idx2_lt1 j⟩

theorem G_ix2 (feat : FVec Ideal ⟨2, ![100000, 8]⟩ .f32) (src dst : IVec ⟨1, ![6400000]⟩ 32) (e : Fin 6400000) (k : Fin 9) :
    G feat src dst (ix2 e k) = at_ feat src dst e k := rfl

/-- At the extended reals a membership degree is `exp ((0 − (x − c)·(x − c)) · 2)` in Mathlib's operations. -/
theorem mu_ideal (x c : Ideal .f32) :
    mu (F := Ideal) x c = Ideal.exp ((Ideal.ofBits .f32 0x00000000#32 - (x - c) * (x - c)) * Ideal.ofBits .f32 0x40000000#32) := rfl

end Cert.Spec

end
-- ==== Proof.PayloadK.lean ====
/-
  The kernel body's arithmetic, read one element at a time.

  The body loads a block of destination coordinates and a block of source coordinates (4096 edges by 2 columns) and the
  three centres (3 by 1), and stores a 4096-by-9 block. Written out: the difference block is transposed to 2 by 4096, each
  of its two rows is laid over three rows, the centres' column is laid over 4096 lanes, and the membership degree
  `exp ((0 − (x − c)·(x − c)) · 2)` is computed elementwise: two 3-by-4096 blocks, one per coordinate. Row `i` of the
  first times row `j` of the second, for the nine pairs in the order `(0,0), (0,1), …, (2,2)`, are stacked into a 9-by-4096
  block, whose transpose is stored.

  Here each layout operation is read at an index, so that the stored block at row `r` and column `k = 3·i + j` is the
  specification's `entry` of row `r` of the two loaded blocks. The statements hold for every float instance: the
  elementwise operations are applied to the same operands in the same order on both sides.
-/
import proofs.«127756_j76991583748342_2_alg».proof.Proof.Gen.Kernel.Skeleton
import proofs.«127756_j76991583748342_2_alg».proof.Proof.Spec
import proofs.«127756_j76991583748342_2_alg».proof.Proof.StoredK
import Idealize.ShloMosaic.Lib.Pipeline.Value
import Idealize.ShloMosaic.Lib.ValueLayout
import Idealize.ShloMosaic.Lib.ValueIdx

noncomputable section

namespace Cert.Kernel.Pay

open Idealize.ShloMosaic Idealize.ShloMosaic.ValueIdx
open Cert.Kernel Cert.Kernel.Gen

/-! ## Two layout facts the library does not state -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Nine `[1, n]` rows stacked along axis 0 read, at `(k, r)`, row `k` at `(0, r)`. -/
theorem concat9_apply {α : Type} {n : ℕ} (p0 p1 p2 p3 p4 p5 p6 p7 p8 : (⟨2, ![1, n]⟩ : Shape).Idx → α)
    (h : Shape.Concatenates (([⟨⟨2, ![1, n]⟩, p0⟩, ⟨⟨2, ![1, n]⟩, p1⟩, ⟨⟨2, ![1, n]⟩, p2⟩, ⟨⟨2, ![1, n]⟩, p3⟩, ⟨⟨2, ![1, n]⟩, p4⟩,
      ⟨⟨2, ![1, n]⟩, p5⟩, ⟨⟨2, ![1, n]⟩, p6⟩, ⟨⟨2, ![1, n]⟩, p7⟩, ⟨⟨2, ![1, n]⟩, p8⟩] : List ((s : Shape) × (s.Idx → α))).map (·.1))
      ⟨2, ![9, n]⟩ 0)
    (k : Nat) (hk : k < 9) (x : (⟨2, ![1, n]⟩ : Shape).Idx → α)
    (hx : ([⟨⟨2, ![1, n]⟩, p0⟩, ⟨⟨2, ![1, n]⟩, p1⟩, ⟨⟨2, ![1, n]⟩, p2⟩, ⟨⟨2, ![1, n]⟩, p3⟩, ⟨⟨2, ![1, n]⟩, p4⟩,
      ⟨⟨2, ![1, n]⟩, p5⟩, ⟨⟨2, ![1, n]⟩, p6⟩, ⟨⟨2, ![1, n]⟩, p7⟩, ⟨⟨2, ![1, n]⟩, p8⟩] : List ((s : Shape) × (s.Idx → α)))[k]'hk
        = ⟨⟨2, ![1, n]⟩, x⟩)
    (r : Fin n) :
    concatenate ⟨2, ![9, n]⟩ 0 [⟨⟨2, ![1, n]⟩, p0⟩, ⟨⟨2, ![1, n]⟩, p1⟩, ⟨⟨2, ![1, n]⟩, p2⟩, ⟨⟨2, ![1, n]⟩, p3⟩, ⟨⟨2, ![1, n]⟩, p4⟩,
      ⟨⟨2, ![1, n]⟩, p5⟩, ⟨⟨2, ![1, n]⟩, p6⟩, ⟨⟨2, ![1, n]⟩, p7⟩, ⟨⟨2, ![1, n]⟩, p8⟩] h (ix2 (⟨k, hk⟩ : Fin 9) r)
      = x (ix2 (0 : Fin 1) r) := by
  refine concatenate_apply_piece (t := ⟨2, ![9, n]⟩) (0 : Fin 2) [⟨⟨2, ![1, n]⟩, p0⟩, ⟨⟨2, ![1, n]⟩, p1⟩, ⟨⟨2, ![1, n]⟩, p2⟩, ⟨⟨2, ![1, n]⟩, p3⟩,
      ⟨⟨2, ![1, n]⟩, p4⟩, ⟨⟨2, ![1, n]⟩, p5⟩, ⟨⟨2, ![1, n]⟩, p6⟩, ⟨⟨2, ![1, n]⟩, p7⟩, ⟨⟨2, ![1, n]⟩, p8⟩]
    h (ix2 (⟨k, hk⟩ : Fin 9) r) k hk ⟨2, ![1, n]⟩ x hx rfl k ?_
    (ix2 (0 : Fin 1) r) (fun b hb => ?_) (Nat.add_zero k)
  · interval_cases k <;> rfl
  · match b with
    | ⟨0, _⟩ => exact absurd rfl hb
    | ⟨1, _⟩ => rfl

/-! ## The body's values at an index -/

variable {F : FTy → Type} [FloatOps F] [Cert.Kernel.Facts]

/-- The transposed difference block: at `(c, r)` it is column `c` of row `r` of the first block less that of the
    second. -/
theorem pay2_apply (v0 v2 : Vec F S4096x2 .f32) (c : Fin 2) (r : Fin 4096) :
    k0_pay2 v0 v2 (ix2 c r) = FloatOps.subf (v0 (ix2 r c)) (v2 (ix2 r c)) := by
  unfold k0_pay2
  refine (transpose_ix2_apply _ _ c r).trans ?_
  show FloatOps.subf (shapeCast S4096x2 v0 _ (ix2 r c)) (shapeCast S4096x2 v2 _ (ix2 r c)) = _
  rw [shapeCast_self, shapeCast_self]

/-- The centres' block, cast to its own shape, is itself. -/
theorem pay3_eq (v8 : Vec F S3x1 .f32) : k0_pay3 v8 = v8 := shapeCast_self _ _

/-- The first membership block: at `(i, r)` the degree of the first coordinate's difference on row `r` in the set
    centred at centre `i`. -/
theorem pay4_apply (v0 v2 : Vec F S4096x2 .f32) (v8 : Vec F S3x1 .f32) (i : Fin 3) (r : Fin 4096) :
    k0_pay4 v0 v2 v8 (ix2 i r)
      = Cert.Spec.mu (FloatOps.subf (v0 (ix2 r (0 : Fin 2))) (v2 (ix2 r (0 : Fin 2)))) (v8 (ix2 i (0 : Fin 1))) := by
  have hx : broadcastTo S3x4096 (extractStridedSlice S1x4096 ![0, 0] (k0_pay2 v0 v2) slices_S2x4096_o0_0_S1x4096)
      broadcasts_S1x4096_S3x4096 (ix2 i r) = FloatOps.subf (v0 (ix2 r (0 : Fin 2))) (v2 (ix2 r (0 : Fin 2))) :=
    (broadcastTo_1b_ab_apply _ _ i r).trans
      ((slice2_axis0_apply 0 _ _ (0 : Fin 1) r (0 : Fin 2) rfl).trans (pay2_apply v0 v2 0 r))
  have hc : broadcastTo S3x4096 (k0_pay3 v8) broadcasts_S3x1_S3x4096 (ix2 i r) = v8 (ix2 i (0 : Fin 1)) :=
    (broadcastTo_a1_ab_apply _ _ i r).trans (congrFun (pay3_eq v8) _)
  show Cert.Spec.mu
      (broadcastTo S3x4096 (extractStridedSlice S1x4096 ![0, 0] (k0_pay2 v0 v2) slices_S2x4096_o0_0_S1x4096)
        broadcasts_S1x4096_S3x4096 (ix2 i r))
      (broadcastTo S3x4096 (k0_pay3 v8) broadcasts_S3x1_S3x4096 (ix2 i r)) = _
  rw [hx, hc]

/-- The second membership block: the same from the second coordinate. -/
theorem pay5_apply (v0 v2 : Vec F S4096x2 .f32) (v8 : Vec F S3x1 .f32) (j : Fin 3) (r : Fin 4096) :
    k0_pay5 v0 v2 v8 (ix2 j r)
      = Cert.Spec.mu (FloatOps.subf (v0 (ix2 r (1 : Fin 2))) (v2 (ix2 r (1 : Fin 2)))) (v8 (ix2 j (0 : Fin 1))) := by
  have hx : broadcastTo S3x4096 (extractStridedSlice S1x4096 ![1, 0] (k0_pay2 v0 v2) slices_S2x4096_o1_0_S1x4096)
      broadcasts_S1x4096_S3x4096 (ix2 j r) = FloatOps.subf (v0 (ix2 r (1 : Fin 2))) (v2 (ix2 r (1 : Fin 2))) :=
    (broadcastTo_1b_ab_apply _ _ j r).trans
      ((slice2_axis0_apply 1 _ _ (0 : Fin 1) r (1 : Fin 2) rfl).trans (pay2_apply v0 v2 1 r))
  have hc : broadcastTo S3x4096 (k0_pay3 v8) broadcasts_S3x1_S3x4096 (ix2 j r) = v8 (ix2 j (0 : Fin 1)) :=
    (broadcastTo_a1_ab_apply _ _ j r).trans (congrFun (pay3_eq v8) _)
  show Cert.Spec.mu
      (broadcastTo S3x4096 (extractStridedSlice S1x4096 ![1, 0] (k0_pay2 v0 v2) slices_S2x4096_o1_0_S1x4096)
        broadcasts_S1x4096_S3x4096 (ix2 j r))
      (broadcastTo S3x4096 (k0_pay3 v8) broadcasts_S3x1_S3x4096 (ix2 j r)) = _
  rw [hx, hc]

/-- Row `i` of one 3-row block times row `j` of another, each cut out as a one-row block: at lane `r` the product of the
    two blocks' elements there. -/
theorem prod_row_apply (A B : FVec F S3x4096 .f32) (o1 o2 : Nat) (hA : S3x4096.Slices ![o1, 0] S1x4096)
    (hB : S3x4096.Slices ![o2, 0] S1x4096) (i j : Fin 3) (hi : i.val = o1 + 0) (hj : j.val = o2 + 0) (r : Fin 4096) :
    mulf (extractStridedSlice S1x4096 ![o1, 0] A hA) (extractStridedSlice S1x4096 ![o2, 0] B hB) (ix2 (0 : Fin 1) r)
      = FloatOps.mulf (A (ix2 i r)) (B (ix2 j r)) := by
  show FloatOps.mulf (extractStridedSlice S1x4096 ![o1, 0] A hA (ix2 (0 : Fin 1) r))
      (extractStridedSlice S1x4096 ![o2, 0] B hB (ix2 (0 : Fin 1) r)) = _
  rw [slice2_axis0_apply o1 A hA (0 : Fin 1) r i hi, slice2_axis0_apply o2 B hB (0 : Fin 1) r j hj]

/-! The seven products the first part of the body forms, each at lane `r`. -/

theorem pay6_apply (v0 v2 : Vec F S4096x2 .f32) (v8 : Vec F S3x1 .f32) (r : Fin 4096) :
    k0_pay6 v0 v2 v8 (ix2 (0 : Fin 1) r)
      = FloatOps.mulf (k0_pay4 v0 v2 v8 (ix2 (0 : Fin 3) r)) (k0_pay5 v0 v2 v8 (ix2 (0 : Fin 3) r)) :=
  prod_row_apply _ _ 0 0 _ _ 0 0 rfl rfl r

theorem pay7_apply (v0 v2 : Vec F S4096x2 .f32) (v8 : Vec F S3x1 .f32) (r : Fin 4096) :
    k0_pay7 v0 v2 v8 (ix2 (0 : Fin 1) r)
      = FloatOps.mulf (k0_pay4 v0 v2 v8 (ix2 (0 : Fin 3) r)) (k0_pay5 v0 v2 v8 (ix2 (1 : Fin 3) r)) :=
  prod_row_apply _ _ 0 1 _ _ 0 1 rfl rfl r

theorem pay8_apply (v0 v2 : Vec F S4096x2 .f32) (v8 : Vec F S3x1 .f32) (r : Fin 4096) :
    k0_pay8 v0 v2 v8 (ix2 (0 : Fin 1) r)
      = FloatOps.mulf (k0_pay4 v0 v2 v8 (ix2 (0 : Fin 3) r)) (k0_pay5 v0 v2 v8 (ix2 (2 : Fin 3) r)) :=
  prod_row_apply _ _ 0 2 _ _ 0 2 rfl rfl r

theorem pay9_apply (v0 v2 : Vec F S4096x2 .f32) (v8 : Vec F S3x1 .f32) (r : Fin 4096) :
    k0_pay9 v0 v2 v8 (ix2 (0 : Fin 1) r)
      = FloatOps.mulf (k0_pay4 v0 v2 v8 (ix2 (1 : Fin 3) r)) (k0_pay5 v0 v2 v8 (ix2 (0 : Fin 3) r)) :=
  prod_row_apply _ _ 1 0 _ _ 1 0 rfl rfl r

theorem pay10_apply (v0 v2 : Vec F S4096x2 .f32) (v8 : Vec F S3x1 .f32) (r : Fin 4096) :
    k0_pay10 v0 v2 v8 (ix2 (0 : Fin 1) r)
      = FloatOps.mulf (k0_pay4 v0 v2 v8 (ix2 (1 : Fin 3) r)) (k0_pay5 v0 v2 v8 (ix2 (1 : Fin 3) r)) :=
  prod_row_apply _ _ 1 1 _ _ 1 1 rfl rfl r

theorem pay11_apply (v0 v2 : Vec F S4096x2 .f32) (v8 : Vec F S3x1 .f32) (r : Fin 4096) :
    k0_pay11 v0 v2 v8 (ix2 (0 : Fin 1) r)
      = FloatOps.mulf (k0_pay4 v0 v2 v8 (ix2 (1 : Fin 3) r)) (k0_pay5 v0 v2 v8 (ix2 (2 : Fin 3) r)) :=
  prod_row_apply _ _ 1 2 _ _ 1 2 rfl rfl r

theorem pay12_apply (v0 v2 : Vec F S4096x2 .f32) (v8 : Vec F S3x1 .f32) (r : Fin 4096) :
    k0_pay12 v0 v2 v8 (ix2 (0 : Fin 1) r)
      = FloatOps.mulf (k0_pay4 v0 v2 v8 (ix2 (2 : Fin 3) r)) (k0_pay5 v0 v2 v8 (ix2 (0 : Fin 3) r)) :=
  prod_row_apply _ _ 2 0 _ _ 2 0 rfl rfl r

/-- The specification's entry for rule `k = 3·i + j`, with the two centres named. -/
theorem entry_mk (s0 s1 d0 d1 : F .f32) (ctr : Fin 3 → F .f32) (i j : Fin 3) (k : Fin 9)
    (hk : k.val = 3 * i.val + j.val) :
    Cert.Spec.entry s0 s1 d0 d1 ctr k
      = FloatOps.mulf (Cert.Spec.mu (FloatOps.subf d0 s0) (ctr i)) (Cert.Spec.mu (FloatOps.subf d1 s1) (ctr j)) := by
  have hi : Cert.Spec.ruleI k = i := Fin.ext (by show k.val / 3 = i.val; omega)
  have hj : Cert.Spec.ruleJ k = j := Fin.ext (by show k.val % 3 = j.val; omega)
  unfold Cert.Spec.entry
  rw [hi, hj]

/-! ## The stored block -/

/-- The stored block at row `r`, column `k`, is the specification's entry from row `r` of the source and destination
    blocks and the centres' column: column `k = 3·i + j` of the transposed stack is its row `k`, the product of row `i` of
    the first membership block and row `j` of the second. -/
theorem stored_apply (src dst : Vec F S4096x2 .f32) (cen : Vec F S3x1 .f32) (r : Fin 4096) (k : Fin 9) :
    stored src dst cen (ix2 r k)
      = Cert.Spec.entry (src (ix2 r (0 : Fin 2))) (src (ix2 r (1 : Fin 2))) (dst (ix2 r (0 : Fin 2)))
          (dst (ix2 r (1 : Fin 2))) (fun i : Fin 3 => cen (ix2 i (0 : Fin 1))) k := by
  unfold stored k0_pay1
  refine (transpose_ix2_apply _ _ r k).trans ?_
  match k with
  | ⟨0, hk⟩ =>
    refine (concat9_apply _ _ _ _ _ _ _ _ _ _ 0 hk _ rfl r).trans ?_
    refine (pay6_apply dst src cen r).trans ?_
    rw [pay4_apply, pay5_apply]
    exact (entry_mk (F := F) _ _ _ _ (fun i : Fin 3 => cen (ix2 i (0 : Fin 1))) 0 0 ⟨0, hk⟩ rfl).symm
  | ⟨1, hk⟩ =>
    refine (concat9_apply _ _ _ _ _ _ _ _ _ _ 1 hk _ rfl r).trans ?_
    refine (pay7_apply dst src cen r).trans ?_
    rw [pay4_apply, pay5_apply]
    exact (entry_mk (F := F) _ _ _ _ (fun i : Fin 3 => cen (ix2 i (0 : Fin 1))) 0 1 ⟨1, hk⟩ rfl).symm
  | ⟨2, hk⟩ =>
    refine (concat9_apply _ _ _ _ _ _ _ _ _ _ 2 hk _ rfl r).trans ?_
    refine (pay8_apply dst src cen r).trans ?_
    rw [pay4_apply, pay5_apply]
    exact (entry_mk (F := F) _ _ _ _ (fun i : Fin 3 => cen (ix2 i (0 : Fin 1))) 0 2 ⟨2, hk⟩ rfl).symm
  | ⟨3, hk⟩ =>
    refine (concat9_apply _ _ _ _ _ _ _ _ _ _ 3 hk _ rfl r).trans ?_
    refine (pay9_apply dst src cen r).trans ?_
    rw [pay4_apply, pay5_apply]
    exact (entry_mk (F := F) _ _ _ _ (fun i : Fin 3 => cen (ix2 i (0 : Fin 1))) 1 0 ⟨3, hk⟩ rfl).symm
  | ⟨4, hk⟩ =>
    refine (concat9_apply _ _ _ _ _ _ _ _ _ _ 4 hk _ rfl r).trans ?_
    refine (pay10_apply dst src cen r).trans ?_
    rw [pay4_apply, pay5_apply]
    exact (entry_mk (F := F) _ _ _ _ (fun i : Fin 3 => cen (ix2 i (0 : Fin 1))) 1 1 ⟨4, hk⟩ rfl).symm
  | ⟨5, hk⟩ =>
    refine (concat9_apply _ _ _ _ _ _ _ _ _ _ 5 hk _ rfl r).trans ?_
    refine (pay11_apply dst src cen r).trans ?_
    rw [pay4_apply, pay5_apply]
    exact (entry_mk (F := F) _ _ _ _ (fun i : Fin 3 => cen (ix2 i (0 : Fin 1))) 1 2 ⟨5, hk⟩ rfl).symm
  | ⟨6, hk⟩ =>
    refine (concat9_apply _ _ _ _ _ _ _ _ _ _ 6 hk _ rfl r).trans ?_
    refine (pay12_apply dst src cen r).trans ?_
    rw [pay4_apply, pay5_apply]
    exact (entry_mk (F := F) _ _ _ _ (fun i : Fin 3 => cen (ix2 i (0 : Fin 1))) 2 0 ⟨6, hk⟩ rfl).symm
  | ⟨7, hk⟩ =>
    refine (concat9_apply _ _ _ _ _ _ _ _ _ _ 7 hk _ rfl r).trans ?_
    refine (prod_row_apply _ _ 2 1 _ _ 2 1 rfl rfl r).trans ?_
    rw [pay4_apply, pay5_apply]
    exact (entry_mk (F := F) _ _ _ _ (fun i : Fin 3 => cen (ix2 i (0 : Fin 1))) 2 1 ⟨7, hk⟩ rfl).symm
  | ⟨8, hk⟩ =>
    refine (concat9_apply _ _ _ _ _ _ _ _ _ _ 8 hk _ rfl r).trans ?_
    refine (prod_row_apply _ _ 2 2 _ _ 2 2 rfl rfl r).trans ?_
    rw [pay4_apply, pay5_apply]
    exact (entry_mk (F := F) _ _ _ _ (fun i : Fin 3 => cen (ix2 i (0 : Fin 1))) 2 2 ⟨8, hk⟩ rfl).symm

/-- Row-locality: the stored block's row `r` depends on the two input blocks' row `r` only. -/
theorem stored_congr_row (src src' dst dst' : Vec F S4096x2 .f32) (cen : Vec F S3x1 .f32) (r : Fin 4096) (k : Fin 9)
    (hs : ∀ c : Fin 2, src (ix2 r c) = src' (ix2 r c)) (hd : ∀ c : Fin 2, dst (ix2 r c) = dst' (ix2 r c)) :
    stored src dst cen (ix2 r k) = stored src' dst' cen (ix2 r k) := by
  rw [stored_apply, stored_apply, hs 0, hs 1, hd 0, hd 1]

end Cert.Kernel.Pay

end
-- ==== Proof.Stored.lean ====
/-
  What the kernel's body stores into its result block, as one pure function of the three blocks it loads: the
  source nodes' coordinates (4096 rows, 2 columns), the destination nodes' coordinates (the same shape) and the three
  centres (a column of 3). The body's arithmetic is the generated skeleton's payloads; this module only composes
  them in the order the body does (its first load is the destination block, its second the source block).
-/
import proofs.«127756_j76991583748342_2_alg».proof.Proof.Gen.KernelIdeal.Skeleton

noncomputable section

namespace Cert.KernelIdeal.Pay

open Cert.KernelIdeal Cert.KernelIdeal.Gen
open Idealize.ShloMosaic Idealize.SL.Sem

variable {F : FTy → Type} [FloatOps F] [Cert.KernelIdeal.Facts]

/-- The stored block from the source block, the destination block and the centres' block. -/
def stored (src dst : Vec F S4096x2 .f32) (cen : Vec F S3x1 .f32) : FVec F S4096x9 .f32 :=
  k0_pay1 (k0_pay4 dst src cen) (k0_pay5 dst src cen) (k0_pay6 dst src cen) (k0_pay7 dst src cen) (k0_pay8 dst src cen)
    (k0_pay9 dst src cen) (k0_pay10 dst src cen) (k0_pay11 dst src cen) (k0_pay12 dst src cen)

end Cert.KernelIdeal.Pay

end
-- ==== Proof.Body.lean ====
/-
  The kernel's run, point by point.

  The grid has 1563 points; point `t` works on edges `4096·t … 4096·t + 4095`. Its two input blocks (the source
  and the destination nodes' coordinates, 4096 rows of 2) and its result block (4096 rows of 9) are cut at the
  arrays' end: 6400000 = 1562·4096 + 2048, so the last point's blocks have only 2048 rows inside the arrays. A
  fetch of a cut block lands those rows in the staging buffer's leading rows and leaves the other rows at words
  nothing names; the body computes on all 4096 rows, and the write-back writes the leading rows only.

  The body is row-wise: row `r` of what it stores depends on row `r` of the two input blocks and on the three
  centres (`RowLocal`, proved where the body's arithmetic is read at an index). Hence the rows that are written back
  do not depend on the unnamed words, and the proof data can name what each buffer holds on the rows inside the
  array: the inputs' blocks, and for the result what the body stores when the unnamed rows are read as zero.

  From the body's triple (two whole loads of the coordinate blocks, the load of the centres, one whole store) the
  library's frame run gives: every weakly fair execution terminates without a fault, the result array ends at what
  the write-backs left (`Dat.arrAt`), and every other array ends as the region found it.
-/
import proofs.«127756_j76991583748342_2_alg».proof.Proof.Gen.KernelIdeal.Frame
import proofs.«127756_j76991583748342_2_alg».proof.Proof.Gen.KernelIdeal.Skeleton
import proofs.«127756_j76991583748342_2_alg».proof.Proof.Stored
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The whole coordinate block, the whole centres' column and the whole result block, as the body's accesses name them. -/
abbrev r2 : Rect S4096x2 := Rect.unit (s := S4096x2) ![0, 0] S4096x2.size inb_S4096x2_S4096x2_0_0
abbrev r31 : Rect S3x1 := Rect.unit (s := S3x1) ![0, 0] S3x1.size inb_S3x1_S3x1_0_0
abbrev r9 : Rect S4096x9 := Rect.unit (s := S4096x9) ![0, 0] S4096x9.size inb_S4096x9_S4096x9_0_0

/-- What the result's staging buffer holds after the body, from what the three input buffers hold: the one store's
    value, read back through the buffer. -/
def out0_3 (x0 x1 : Vec F S4096x2 .f32) (x2 : Vec F S3x1 .f32) : Vec F S4096x9 .f32 :=
  View.canon [⟨r9, Pay.stored (View.ld x0 r2) (View.ld x1 r2) (View.ld x2 r31)⟩]

/-- The one store covers the buffer. -/
theorem cover0_3 (p0 : Vec F S4096x9 .f32) (y : S4096x9.Idx) :
    ∃ pc ∈ ([⟨r9, p0⟩] : List (View.Piece (Elt F) S4096x9 .f32)), y ∈ pc.1.set :=
  View.cover_of_tiled [⟨r9, p0⟩] S4096x9.size (by rfl) y

/-- The accesses are at offset zero and of the buffers' own sizes: the buffer after the body holds the stored value itself. -/
theorem out0_3_eq (x0 x1 : Vec F S4096x2 .f32) (x2 : Vec F S3x1 .f32) : out0_3 x0 x1 x2 = Pay.stored x0 x1 x2 := by
  have hz : (![0, 0] : Fin 2 → Nat) = fun _ => 0 := funext fun a => by fin_cases a <;> rfl
  unfold out0_3
  rw [View.canon_unit_zero hz]
  simp only [View.ld_unit_zero (S := S4096x2) hz, View.ld_unit_zero (S := S3x1) hz]

set_option maxHeartbeats 1000000 in
/-- The body on whole staging memrefs — the three inputs' at contents `x0`, `x1`, `x2`, the result's at anything — runs
    to the continuation with the inputs' as they were and the result's at `out0_3 x0 x1 x2`. -/
theorem sound_kernel (c : Dev nD) (E : Set ℕ) (i : grid0.Coords)
    (arg1 : Memref sig .tc .vmem S4096x2 .f32) (harg1 : arg1.IsWhole) (arg2 : Memref sig .tc .vmem S4096x2 .f32) (harg2 : arg2.IsWhole)
    (arg3 : Memref sig .tc .vmem S3x1 .f32) (harg3 : arg3.IsWhole) (arg4 : Memref sig .tc .vmem S4096x9 .f32) (harg4 : arg4.IsWhole)
    (x0 x1 : Vec F S4096x2 .f32) (x2 : Vec F S3x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fuzzy_kernel i arg1 harg1 arg2 harg2 arg3 harg3 arg4 harg4) K := by
  simp only [cc0__fuzzy_kernel_eq_skeleton]; unfold cc0__fuzzy_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The word the proof data writes on a cut block's rows past the array's end: zero. Nothing reads it. -/
def zw : Elt F .f32 := Scalar.ofBits .f32 0x00000000#32

/-- The source and destination coordinate blocks at point `t`: their rows inside the arrays. -/
def srcBlk (c : Dev nD) (t : Fin cfg0.N) : (win0_0.xblock (grid0.coords t)).Idx → Elt F .f32 := iblk m c 0 t
def dstBlk (c : Dev nD) (t : Fin cfg0.N) : (win0_1.xblock (grid0.coords t)).Idx → Elt F .f32 := iblk m c 1 t
/-- The same, filled out to 4096 rows with zeros. -/
def src8 (c : Dev nD) (t : Fin cfg0.N) : S4096x2.Idx → Elt F .f32 := win0_0.fill (grid0.coords t) (fun _ => zw) (srcBlk m c t)
def dst8 (c : Dev nD) (t : Fin cfg0.N) : S4096x2.Idx → Elt F .f32 := win0_1.fill (grid0.coords t) (fun _ => zw) (dstBlk m c t)
/-- The centres' column. -/
def cen3 (c : Dev nD) (t : Fin cfg0.N) : S3x1.Idx → Elt F .f32 := iblk m c 2 t

/-- The proof data of the pipeline on core `c`: the arrays as the region finds them; after the body at point `t` the
    inputs' buffers at their blocks (zeros past the array's end) and the result's at what the body stores from those;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => src8 m c t
    | ⟨1, _⟩ => dst8 m c t
    | ⟨2, _⟩ => iblk m c 2 t
    | ⟨3, _⟩ => out0_3 (src8 m c t) (dst8 m c t) (cen3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = src8 m c t := by dsimp only [dats]
theorem after0_1 (c : Dev nD) (t : Fin cfg0.N) : (dats m 0 c).after 1 t = dst8 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (src8 m c t) (dst8 m c t) (cen3 m c t) := by dsimp only [dats]

/-- What the body finds: the two coordinate buffers just fetched — the block on the rows inside the array, `d` elsewhere —, -/
theorem before0_0 (c : Dev nD) (t : Fin cfg0.N) (d) :
    (dats m 0 c).before 0 t d = win0_0.fill (grid0.coords t) d (srcBlk m c t) := by
  rw [(dats m 0 c).before_fetched 0 t (fetch0_0 t) d]
  unfold Dat.fetched Dat.blockOf srcBlk iblk; rw [A_eq]; try rfl
theorem before0_1 (c : Dev nD) (t : Fin cfg0.N) (d) :
    (dats m 0 c).before 1 t d = win0_1.fill (grid0.coords t) d (dstBlk m c t) := by
  rw [(dats m 0 c).before_fetched 1 t (fetch0_1 t) d]
  unfold Dat.fetched Dat.blockOf dstBlk iblk; rw [A_eq]; try rfl
/-- the centres' buffer at the centres, fetched at this point or kept from the first, -/
theorem before0_2 (c : Dev nD) (t : Fin cfg0.N) (d) : (dats m 0 c).before 2 t d = iblk m c 2 t :=
  before0_2_of m (dats m 0 c) (A_eq m c 2) (after0_2 m c) t d
/-- the result's buffer at contents nothing names (it was written back at the point before). -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

/-- Row `r` of what the body stores depends on row `r` of the two coordinate blocks only. -/
def RowLocal (F : FTy → Type) [FloatOps F] : Prop :=
  ∀ (src src' dst dst' : Vec F S4096x2 .f32) (cen : Vec F S3x1 .f32) (r : Fin 4096) (k : Fin 9),
    (∀ col : Fin 2, src (ix2 r col) = src' (ix2 r col)) → (∀ col : Fin 2, dst (ix2 r col) = dst' (ix2 r col)) →
    Pay.stored src dst cen (ix2 r k) = Pay.stored src' dst' cen (ix2 r k)

/-- On the rows a transfer moves, a filled block does not depend on what fills it out. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The three cut windows are cut alike: the result block's rows inside its array are the coordinate blocks' rows
    inside theirs, and a coordinate block's two columns are both inside. -/
theorem xsize_3_0 (i : grid0.Coords) : win0_3.xsize i 0 = win0_0.xsize i 0 := rfl
theorem xsize_1_0 (i : grid0.Coords) : win0_1.xsize i 0 = win0_0.xsize i 0 := rfl
theorem xsize_0_1 (i : grid0.Coords) : win0_0.xsize i 1 = 2 := rfl
theorem xsize_1_1 (i : grid0.Coords) : win0_1.xsize i 1 = 2 := rfl

/-- The rows of the stored block that are written back do not depend on the words past the arrays' end. -/
theorem cut_out_congr (hloc : RowLocal F) (i : grid0.Coords) (d0 d0' d1 d1' : S4096x2.Idx → Elt F .f32)
    (g0 : (win0_0.xblock i).Idx → Elt F .f32) (g1 : (win0_1.xblock i).Idx → Elt F .f32) (x2 : Vec F S3x1 .f32) :
    win0_3.cut i (out0_3 (win0_0.fill i d0 g0) (win0_1.fill i d1 g1) x2)
      = win0_3.cut i (out0_3 (win0_0.fill i d0' g0) (win0_1.fill i d1' g1) x2) := by
  funext j
  show out0_3 _ _ _ (win0_3.xinj i j) = out0_3 _ _ _ (win0_3.xinj i j)
  rw [out0_3_eq, out0_3_eq]
  have hj0 : (j 0).val < win0_0.xsize i 0 := (xsize_3_0 i) ▸ (j 0).isLt
  have hr : (j 0).val < 4096 := Nat.lt_of_lt_of_le hj0 (win0_0.xsize_le i 0)
  have hk : (j 1).val < 9 := Nat.lt_of_lt_of_le (j 1).isLt (win0_3.xsize_le i 1)
  have hx : win0_3.xinj i j = ix2 (⟨(j 0).val, hr⟩ : Fin 4096) (⟨(j 1).val, hk⟩ : Fin 9) :=
    funext fun a => Fin.ext (by match a with | ⟨0, _⟩ => rfl | ⟨1, _⟩ => rfl)
  rw [hx]
  refine hloc _ _ _ _ _ _ _ (fun col => ?_) (fun col => ?_)
  · refine fill_eq_of_moved win0_0 i d0 d0' g0 _ ((win0_0.moved_iff i _).mpr fun a => ?_)
    match a with
    | ⟨0, _⟩ => exact hj0
    | ⟨1, _⟩ => show col.val < win0_0.xsize i 1; rw [xsize_0_1]; exact col.isLt
  · refine fill_eq_of_moved win0_1 i d1 d1' g1 _ ((win0_1.moved_iff i _).mpr fun a => ?_)
    match a with
    | ⟨0, _⟩ => exact (xsize_1_0 i) ▸ hj0
    | ⟨1, _⟩ => show col.val < win0_1.xsize i 1; rw [xsize_1_1]; exact col.isLt

/-- A buffer held at contents `X` is held at any contents equal to `X`. -/
theorem owns_of_eq (c : Dev nD) {s : Shape} (M : Memref sig .tc .vmem s .f32) (X Y : s.Idx → Elt F .f32) (h : Y = X) :
    owns (c : Thread nD τ) M fullShare X ⊢ (owns (c : Thread nD τ) M fullShare Y : sProp 𝕄) := by
  subst h; exact BI.Entails.refl _

/-- What the body is called with at point `t` (the library's obligation, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: each cut window's buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point. -/
theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel c Set.univ (grid0.coords t) _ _ _ _ _ _ _ _
    (win0_0.fill (grid0.coords t) d0 (srcBlk m c t)) (win0_1.fill (grid0.coords t) d1 (dstBlk m c t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (src8 m c t) = srcBlk m c t from win0_0.cut_fill _ _ _]
    iexact H0
  isplitl [H1]
  · iexists d1
    rw [show win0_1.cut (grid0.coords t) (dst8 m c t) = dstBlk m c t from win0_1.cut_fill _ _ _]
    iexact H1
  isplitl [H2]; · iexact H2
  · iexists out0_3 (win0_0.fill (grid0.coords t) d0 (srcBlk m c t)) (win0_1.fill (grid0.coords t) d1 (dstBlk m c t)) (iblk m c 2 t)
    have e := win0_3.fill_congr_cut (grid0.coords t) (cut_out_congr hloc (grid0.coords t) d0 (fun _ => zw) d1 (fun _ => zw) (srcBlk m c t) (dstBlk m c t) (iblk m c 2 t))
    change _ ⊢ owns (c : Thread nD τ) (st0_3 t) fullShare (win0_3.fill (grid0.coords t)
      (out0_3 (win0_0.fill (grid0.coords t) d0 (srcBlk m c t)) (win0_1.fill (grid0.coords t) d1 (dstBlk m c t)) (iblk m c 2 t))
      (win0_3.cut (grid0.coords t) (out0_3 (win0_0.fill (grid0.coords t) (fun _ => zw) (srcBlk m c t)) (win0_1.fill (grid0.coords t) (fun _ => zw) (dstBlk m c t)) (iblk m c 2 t))))
    exact owns_of_eq c _ _ _ e

/-- The library's body obligation, at every point. -/
theorem body_obligation (hloc : RowLocal F) (c : Dev nD) :
    BodyObligationLoose (dats (F := F) m 0 c) (defs₀ (F := F)) Variants.none () Set.univ := fun t => by
  rw [bigSep_W0, bigSep_W0]
  exact sound_body m hloc c t

/-! ## The run and the frame -/

set_option backward.isDefEq.respectTransparency.types false in
/-- Every weakly fair execution of @main terminates, the result array ends at what the write-backs left of the
    body's stores and every other unscoped buffer as the region found it. -/
theorem run_main (hloc : RowLocal F) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hloc)

end Cert.KernelIdeal.Body

end
-- ==== Proof.Payload.lean ====
/-
  The kernel body's arithmetic, read one element at a time.

  The body loads a block of destination coordinates and a block of source coordinates (4096 edges by 2 columns) and the
  three centres (3 by 1), and stores a 4096-by-9 block. Written out: the difference block is transposed to 2 by 4096, each
  of its two rows is laid over three rows, the centres' column is laid over 4096 lanes, and the membership degree
  `exp ((0 − (x − c)·(x − c)) · 2)` is computed elementwise: two 3-by-4096 blocks, one per coordinate. Row `i` of the
  first times row `j` of the second, for the nine pairs in the order `(0,0), (0,1), …, (2,2)`, are stacked into a 9-by-4096
  block, whose transpose is stored.

  Here each layout operation is read at an index, so that the stored block at row `r` and column `k = 3·i + j` is the
  specification's `entry` of row `r` of the two loaded blocks. The statements hold for every float instance: the
  elementwise operations are applied to the same operands in the same order on both sides.
-/
import proofs.«127756_j76991583748342_2_alg».proof.Proof.Gen.KernelIdeal.Skeleton
import proofs.«127756_j76991583748342_2_alg».proof.Proof.Spec
import proofs.«127756_j76991583748342_2_alg».proof.Proof.Stored
import Idealize.ShloMosaic.Lib.Pipeline.Value
import Idealize.ShloMosaic.Lib.ValueLayout
import Idealize.ShloMosaic.Lib.ValueIdx

noncomputable section

namespace Cert.KernelIdeal.Pay

open Idealize.ShloMosaic Idealize.ShloMosaic.ValueIdx
open Cert.KernelIdeal Cert.KernelIdeal.Gen

/-! ## Two layout facts the library does not state -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Nine `[1, n]` rows stacked along axis 0 read, at `(k, r)`, row `k` at `(0, r)`. -/
theorem concat9_apply {α : Type} {n : ℕ} (p0 p1 p2 p3 p4 p5 p6 p7 p8 : (⟨2, ![1, n]⟩ : Shape).Idx → α)
    (h : Shape.Concatenates (([⟨⟨2, ![1, n]⟩, p0⟩, ⟨⟨2, ![1, n]⟩, p1⟩, ⟨⟨2, ![1, n]⟩, p2⟩, ⟨⟨2, ![1, n]⟩, p3⟩, ⟨⟨2, ![1, n]⟩, p4⟩,
      ⟨⟨2, ![1, n]⟩, p5⟩, ⟨⟨2, ![1, n]⟩, p6⟩, ⟨⟨2, ![1, n]⟩, p7⟩, ⟨⟨2, ![1, n]⟩, p8⟩] : List ((s : Shape) × (s.Idx → α))).map (·.1))
      ⟨2, ![9, n]⟩ 0)
    (k : Nat) (hk : k < 9) (x : (⟨2, ![1, n]⟩ : Shape).Idx → α)
    (hx : ([⟨⟨2, ![1, n]⟩, p0⟩, ⟨⟨2, ![1, n]⟩, p1⟩, ⟨⟨2, ![1, n]⟩, p2⟩, ⟨⟨2, ![1, n]⟩, p3⟩, ⟨⟨2, ![1, n]⟩, p4⟩,
      ⟨⟨2, ![1, n]⟩, p5⟩, ⟨⟨2, ![1, n]⟩, p6⟩, ⟨⟨2, ![1, n]⟩, p7⟩, ⟨⟨2, ![1, n]⟩, p8⟩] : List ((s : Shape) × (s.Idx → α)))[k]'hk
        = ⟨⟨2, ![1, n]⟩, x⟩)
    (r : Fin n) :
    concatenate ⟨2, ![9, n]⟩ 0 [⟨⟨2, ![1, n]⟩, p0⟩, ⟨⟨2, ![1, n]⟩, p1⟩, ⟨⟨2, ![1, n]⟩, p2⟩, ⟨⟨2, ![1, n]⟩, p3⟩, ⟨⟨2, ![1, n]⟩, p4⟩,
      ⟨⟨2, ![1, n]⟩, p5⟩, ⟨⟨2, ![1, n]⟩, p6⟩, ⟨⟨2, ![1, n]⟩, p7⟩, ⟨⟨2, ![1, n]⟩, p8⟩] h (ix2 (⟨k, hk⟩ : Fin 9) r)
      = x (ix2 (0 : Fin 1) r) := by
  refine concatenate_apply_piece (t := ⟨2, ![9, n]⟩) (0 : Fin 2) [⟨⟨2, ![1, n]⟩, p0⟩, ⟨⟨2, ![1, n]⟩, p1⟩, ⟨⟨2, ![1, n]⟩, p2⟩, ⟨⟨2, ![1, n]⟩, p3⟩,
      ⟨⟨2, ![1, n]⟩, p4⟩, ⟨⟨2, ![1, n]⟩, p5⟩, ⟨⟨2, ![1, n]⟩, p6⟩, ⟨⟨2, ![1, n]⟩, p7⟩, ⟨⟨2, ![1, n]⟩, p8⟩]
    h (ix2 (⟨k, hk⟩ : Fin 9) r) k hk ⟨2, ![1, n]⟩ x hx rfl k ?_
    (ix2 (0 : Fin 1) r) (fun b hb => ?_) (Nat.add_zero k)
  · interval_cases k <;> rfl
  · match b with
    | ⟨0, _⟩ => exact absurd rfl hb
    | ⟨1, _⟩ => rfl

/-! ## The body's values at an index -/

variable {F : FTy → Type} [FloatOps F] [Cert.KernelIdeal.Facts]

/-- The transposed difference block: at `(c, r)` it is column `c` of row `r` of the first block less that of the
    second. -/
theorem pay2_apply (v0 v2 : Vec F S4096x2 .f32) (c : Fin 2) (r : Fin 4096) :
    k0_pay2 v0 v2 (ix2 c r) = FloatOps.subf (v0 (ix2 r c)) (v2 (ix2 r c)) := by
  unfold k0_pay2
  refine (transpose_ix2_apply _ _ c r).trans ?_
  show FloatOps.subf (shapeCast S4096x2 v0 _ (ix2 r c)) (shapeCast S4096x2 v2 _ (ix2 r c)) = _
  rw [shapeCast_self, shapeCast_self]

/-- The centres' block, cast to its own shape, is itself. -/
theorem pay3_eq (v8 : Vec F S3x1 .f32) : k0_pay3 v8 = v8 := shapeCast_self _ _

/-- The first membership block: at `(i, r)` the degree of the first coordinate's difference on row `r` in the set
    centred at centre `i`. -/
theorem pay4_apply (v0 v2 : Vec F S4096x2 .f32) (v8 : Vec F S3x1 .f32) (i : Fin 3) (r : Fin 4096) :
    k0_pay4 v0 v2 v8 (ix2 i r)
      = Cert.Spec.mu (FloatOps.subf (v0 (ix2 r (0 : Fin 2))) (v2 (ix2 r (0 : Fin 2)))) (v8 (ix2 i (0 : Fin 1))) := by
  have hx : broadcastTo S3x4096 (extractStridedSlice S1x4096 ![0, 0] (k0_pay2 v0 v2) slices_S2x4096_o0_0_S1x4096)
      broadcasts_S1x4096_S3x4096 (ix2 i r) = FloatOps.subf (v0 (ix2 r (0 : Fin 2))) (v2 (ix2 r (0 : Fin 2))) :=
    (broadcastTo_1b_ab_apply _ _ i r).trans
      ((slice2_axis0_apply 0 _ _ (0 : Fin 1) r (0 : Fin 2) rfl).trans (pay2_apply v0 v2 0 r))
  have hc : broadcastTo S3x4096 (k0_pay3 v8) broadcasts_S3x1_S3x4096 (ix2 i r) = v8 (ix2 i (0 : Fin 1)) :=
    (broadcastTo_a1_ab_apply _ _ i r).trans (congrFun (pay3_eq v8) _)
  show Cert.Spec.mu
      (broadcastTo S3x4096 (extractStridedSlice S1x4096 ![0, 0] (k0_pay2 v0 v2) slices_S2x4096_o0_0_S1x4096)
        broadcasts_S1x4096_S3x4096 (ix2 i r))
      (broadcastTo S3x4096 (k0_pay3 v8) broadcasts_S3x1_S3x4096 (ix2 i r)) = _
  rw [hx, hc]

/-- The second membership block: the same from the second coordinate. -/
theorem pay5_apply (v0 v2 : Vec F S4096x2 .f32) (v8 : Vec F S3x1 .f32) (j : Fin 3) (r : Fin 4096) :
    k0_pay5 v0 v2 v8 (ix2 j r)
      = Cert.Spec.mu (FloatOps.subf (v0 (ix2 r (1 : Fin 2))) (v2 (ix2 r (1 : Fin 2)))) (v8 (ix2 j (0 : Fin 1))) := by
  have hx : broadcastTo S3x4096 (extractStridedSlice S1x4096 ![1, 0] (k0_pay2 v0 v2) slices_S2x4096_o1_0_S1x4096)
      broadcasts_S1x4096_S3x4096 (ix2 j r) = FloatOps.subf (v0 (ix2 r (1 : Fin 2))) (v2 (ix2 r (1 : Fin 2))) :=
    (broadcastTo_1b_ab_apply _ _ j r).trans
      ((slice2_axis0_apply 1 _ _ (0 : Fin 1) r (1 : Fin 2) rfl).trans (pay2_apply v0 v2 1 r))
  have hc : broadcastTo S3x4096 (k0_pay3 v8) broadcasts_S3x1_S3x4096 (ix2 j r) = v8 (ix2 j (0 : Fin 1)) :=
    (broadcastTo_a1_ab_apply _ _ j r).trans (congrFun (pay3_eq v8) _)
  show Cert.Spec.mu
      (broadcastTo S3x4096 (extractStridedSlice S1x4096 ![1, 0] (k0_pay2 v0 v2) slices_S2x4096_o1_0_S1x4096)
        broadcasts_S1x4096_S3x4096 (ix2 j r))
      (broadcastTo S3x4096 (k0_pay3 v8) broadcasts_S3x1_S3x4096 (ix2 j r)) = _
  rw [hx, hc]

/-- Row `i` of one 3-row block times row `j` of another, each cut out as a one-row block: at lane `r` the product of the
    two blocks' elements there. -/
theorem prod_row_apply (A B : FVec F S3x4096 .f32) (o1 o2 : Nat) (hA : S3x4096.Slices ![o1, 0] S1x4096)
    (hB : S3x4096.Slices ![o2, 0] S1x4096) (i j : Fin 3) (hi : i.val = o1 + 0) (hj : j.val = o2 + 0) (r : Fin 4096) :
    mulf (extractStridedSlice S1x4096 ![o1, 0] A hA) (extractStridedSlice S1x4096 ![o2, 0] B hB) (ix2 (0 : Fin 1) r)
      = FloatOps.mulf (A (ix2 i r)) (B (ix2 j r)) := by
  show FloatOps.mulf (extractStridedSlice S1x4096 ![o1, 0] A hA (ix2 (0 : Fin 1) r))
      (extractStridedSlice S1x4096 ![o2, 0] B hB (ix2 (0 : Fin 1) r)) = _
  rw [slice2_axis0_apply o1 A hA (0 : Fin 1) r i hi, slice2_axis0_apply o2 B hB (0 : Fin 1) r j hj]

/-! The seven products the first part of the body forms, each at lane `r`. -/

theorem pay6_apply (v0 v2 : Vec F S4096x2 .f32) (v8 : Vec F S3x1 .f32) (r : Fin 4096) :
    k0_pay6 v0 v2 v8 (ix2 (0 : Fin 1) r)
      = FloatOps.mulf (k0_pay4 v0 v2 v8 (ix2 (0 : Fin 3) r)) (k0_pay5 v0 v2 v8 (ix2 (0 : Fin 3) r)) :=
  prod_row_apply _ _ 0 0 _ _ 0 0 rfl rfl r

theorem pay7_apply (v0 v2 : Vec F S4096x2 .f32) (v8 : Vec F S3x1 .f32) (r : Fin 4096) :
    k0_pay7 v0 v2 v8 (ix2 (0 : Fin 1) r)
      = FloatOps.mulf (k0_pay4 v0 v2 v8 (ix2 (0 : Fin 3) r)) (k0_pay5 v0 v2 v8 (ix2 (1 : Fin 3) r)) :=
  prod_row_apply _ _ 0 1 _ _ 0 1 rfl rfl r

theorem pay8_apply (v0 v2 : Vec F S4096x2 .f32) (v8 : Vec F S3x1 .f32) (r : Fin 4096) :
    k0_pay8 v0 v2 v8 (ix2 (0 : Fin 1) r)
      = FloatOps.mulf (k0_pay4 v0 v2 v8 (ix2 (0 : Fin 3) r)) (k0_pay5 v0 v2 v8 (ix2 (2 : Fin 3) r)) :=
  prod_row_apply _ _ 0 2 _ _ 0 2 rfl rfl r

theorem pay9_apply (v0 v2 : Vec F S4096x2 .f32) (v8 : Vec F S3x1 .f32) (r : Fin 4096) :
    k0_pay9 v0 v2 v8 (ix2 (0 : Fin 1) r)
      = FloatOps.mulf (k0_pay4 v0 v2 v8 (ix2 (1 : Fin 3) r)) (k0_pay5 v0 v2 v8 (ix2 (0 : Fin 3) r)) :=
  prod_row_apply _ _ 1 0 _ _ 1 0 rfl rfl r

theorem pay10_apply (v0 v2 : Vec F S4096x2 .f32) (v8 : Vec F S3x1 .f32) (r : Fin 4096) :
    k0_pay10 v0 v2 v8 (ix2 (0 : Fin 1) r)
      = FloatOps.mulf (k0_pay4 v0 v2 v8 (ix2 (1 : Fin 3) r)) (k0_pay5 v0 v2 v8 (ix2 (1 : Fin 3) r)) :=
  prod_row_apply _ _ 1 1 _ _ 1 1 rfl rfl r

theorem pay11_apply (v0 v2 : Vec F S4096x2 .f32) (v8 : Vec F S3x1 .f32) (r : Fin 4096) :
    k0_pay11 v0 v2 v8 (ix2 (0 : Fin 1) r)
      = FloatOps.mulf (k0_pay4 v0 v2 v8 (ix2 (1 : Fin 3) r)) (k0_pay5 v0 v2 v8 (ix2 (2 : Fin 3) r)) :=
  prod_row_apply _ _ 1 2 _ _ 1 2 rfl rfl r

theorem pay12_apply (v0 v2 : Vec F S4096x2 .f32) (v8 : Vec F S3x1 .f32) (r : Fin 4096) :
    k0_pay12 v0 v2 v8 (ix2 (0 : Fin 1) r)
      = FloatOps.mulf (k0_pay4 v0 v2 v8 (ix2 (2 : Fin 3) r)) (k0_pay5 v0 v2 v8 (ix2 (0 : Fin 3) r)) :=
  prod_row_apply _ _ 2 0 _ _ 2 0 rfl rfl r

/-- The specification's entry for rule `k = 3·i + j`, with the two centres named. -/
theorem entry_mk (s0 s1 d0 d1 : F .f32) (ctr : Fin 3 → F .f32) (i j : Fin 3) (k : Fin 9)
    (hk : k.val = 3 * i.val + j.val) :
    Cert.Spec.entry s0 s1 d0 d1 ctr k
      = FloatOps.mulf (Cert.Spec.mu (FloatOps.subf d0 s0) (ctr i)) (Cert.Spec.mu (FloatOps.subf d1 s1) (ctr j)) := by
  have hi : Cert.Spec.ruleI k = i := Fin.ext (by show k.val / 3 = i.val; omega)
  have hj : Cert.Spec.ruleJ k = j := Fin.ext (by show k.val % 3 = j.val; omega)
  unfold Cert.Spec.entry
  rw [hi, hj]

/-! ## The stored block -/

/-- The stored block at row `r`, column `k`, is the specification's entry from row `r` of the source and destination
    blocks and the centres' column: column `k = 3·i + j` of the transposed stack is its row `k`, the product of row `i` of
    the first membership block and row `j` of the second. -/
theorem stored_apply (src dst : Vec F S4096x2 .f32) (cen : Vec F S3x1 .f32) (r : Fin 4096) (k : Fin 9) :
    stored src dst cen (ix2 r k)
      = Cert.Spec.entry (src (ix2 r (0 : Fin 2))) (src (ix2 r (1 : Fin 2))) (dst (ix2 r (0 : Fin 2)))
          (dst (ix2 r (1 : Fin 2))) (fun i : Fin 3 => cen (ix2 i (0 : Fin 1))) k := by
  unfold stored k0_pay1
  refine (transpose_ix2_apply _ _ r k).trans ?_
  match k with
  | ⟨0, hk⟩ =>
    refine (concat9_apply _ _ _ _ _ _ _ _ _ _ 0 hk _ rfl r).trans ?_
    refine (pay6_apply dst src cen r).trans ?_
    rw [pay4_apply, pay5_apply]
    exact (entry_mk (F := F) _ _ _ _ (fun i : Fin 3 => cen (ix2 i (0 : Fin 1))) 0 0 ⟨0, hk⟩ rfl).symm
  | ⟨1, hk⟩ =>
    refine (concat9_apply _ _ _ _ _ _ _ _ _ _ 1 hk _ rfl r).trans ?_
    refine (pay7_apply dst src cen r).trans ?_
    rw [pay4_apply, pay5_apply]
    exact (entry_mk (F := F) _ _ _ _ (fun i : Fin 3 => cen (ix2 i (0 : Fin 1))) 0 1 ⟨1, hk⟩ rfl).symm
  | ⟨2, hk⟩ =>
    refine (concat9_apply _ _ _ _ _ _ _ _ _ _ 2 hk _ rfl r).trans ?_
    refine (pay8_apply dst src cen r).trans ?_
    rw [pay4_apply, pay5_apply]
    exact (entry_mk (F := F) _ _ _ _ (fun i : Fin 3 => cen (ix2 i (0 : Fin 1))) 0 2 ⟨2, hk⟩ rfl).symm
  | ⟨3, hk⟩ =>
    refine (concat9_apply _ _ _ _ _ _ _ _ _ _ 3 hk _ rfl r).trans ?_
    refine (pay9_apply dst src cen r).trans ?_
    rw [pay4_apply, pay5_apply]
    exact (entry_mk (F := F) _ _ _ _ (fun i : Fin 3 => cen (ix2 i (0 : Fin 1))) 1 0 ⟨3, hk⟩ rfl).symm
  | ⟨4, hk⟩ =>
    refine (concat9_apply _ _ _ _ _ _ _ _ _ _ 4 hk _ rfl r).trans ?_
    refine (pay10_apply dst src cen r).trans ?_
    rw [pay4_apply, pay5_apply]
    exact (entry_mk (F := F) _ _ _ _ (fun i : Fin 3 => cen (ix2 i (0 : Fin 1))) 1 1 ⟨4, hk⟩ rfl).symm
  | ⟨5, hk⟩ =>
    refine (concat9_apply _ _ _ _ _ _ _ _ _ _ 5 hk _ rfl r).trans ?_
    refine (pay11_apply dst src cen r).trans ?_
    rw [pay4_apply, pay5_apply]
    exact (entry_mk (F := F) _ _ _ _ (fun i : Fin 3 => cen (ix2 i (0 : Fin 1))) 1 2 ⟨5, hk⟩ rfl).symm
  | ⟨6, hk⟩ =>
    refine (concat9_apply _ _ _ _ _ _ _ _ _ _ 6 hk _ rfl r).trans ?_
    refine (pay12_apply dst src cen r).trans ?_
    rw [pay4_apply, pay5_apply]
    exact (entry_mk (F := F) _ _ _ _ (fun i : Fin 3 => cen (ix2 i (0 : Fin 1))) 2 0 ⟨6, hk⟩ rfl).symm
  | ⟨7, hk⟩ =>
    refine (concat9_apply _ _ _ _ _ _ _ _ _ _ 7 hk _ rfl r).trans ?_
    refine (prod_row_apply _ _ 2 1 _ _ 2 1 rfl rfl r).trans ?_
    rw [pay4_apply, pay5_apply]
    exact (entry_mk (F := F) _ _ _ _ (fun i : Fin 3 => cen (ix2 i (0 : Fin 1))) 2 1 ⟨7, hk⟩ rfl).symm
  | ⟨8, hk⟩ =>
    refine (concat9_apply _ _ _ _ _ _ _ _ _ _ 8 hk _ rfl r).trans ?_
    refine (prod_row_apply _ _ 2 2 _ _ 2 2 rfl rfl r).trans ?_
    rw [pay4_apply, pay5_apply]
    exact (entry_mk (F := F) _ _ _ _ (fun i : Fin 3 => cen (ix2 i (0 : Fin 1))) 2 2 ⟨8, hk⟩ rfl).symm

/-- Row-locality: the stored block's row `r` depends on the two input blocks' row `r` only. -/
theorem stored_congr_row (src src' dst dst' : Vec F S4096x2 .f32) (cen : Vec F S3x1 .f32) (r : Fin 4096) (k : Fin 9)
    (hs : ∀ c : Fin 2, src (ix2 r c) = src' (ix2 r c)) (hd : ∀ c : Fin 2, dst (ix2 r c) = dst' (ix2 r c)) :
    stored src dst cen (ix2 r k) = stored src' dst' cen (ix2 r k) := by
  rw [stored_apply, stored_apply, hs 0, hs 1, hd 0, hd 1]

end Cert.KernelIdeal.Pay

end
-- ==== Proof.Entry.lean ====
/-
  What the three operand arrays of the pallas_call hold when its region is entered, read at an index, over any
  float instance.

  Before the region the host computes, for the edges' source words and again for their destination words: the
  word with the number of nodes (100000) added when it is negative (a compare with 0, an add, a select, all
  pointwise), as a column [E, 1]; then the gather of whole rows of the feature table's first two columns
  (the slice [:, 0:2] of the table [100000, 8]) at that column of row numbers. Row `e` of the gathered array is
  therefore row `rowOf (word e)` of the table, columns 0 and 1. The third operand is the literal table of the
  three centres, reshaped from [3] to [3, 1]: entry `(i, 0)` is the float with the word `ctrWord i`.
-/
import proofs.«127756_j76991583748342_2_alg».proof.Proof.Gen.KernelIdeal.Frame
import proofs.«127756_j76991583748342_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Entry

open Cert.KernelIdeal Cert.KernelIdeal.Gen Idealize.ShloMosaic Idealize.ShloMosaic.TcCoe Idealize.ShloMosaic.ValueIdx Idealize.SL.Sem

/-! ## The host's operations read at an index, over variables of the literal shapes -/

section Reads
variable {α : Type}

/-- The column of wrapped row numbers read at `(e, 0)`: the word at `e`, with 100000 added when it is negative. -/
theorem wrapped_apply (hb0 : S_.BroadcastsInDim S6400000 (![] : Fin 0 → Fin S6400000.rank))
    (hb1 : S6400000.BroadcastsInDim S6400000x1 (![0] : Fin 1 → Fin S6400000x1.rank))
    (w : IVec S6400000 32) (e : Fin 6400000) :
    broadcastInDim S6400000x1 ![0] hb1
        (select (cmpi .slt w (broadcastInDim S6400000 ![] hb0 (constantI S_ 32 0#32)))
          (addi w (broadcastInDim S6400000 ![] hb0 (constantI S_ 32 100000#32))) w) (ix2 e (0 : Fin 1))
      = Cert.Spec.wrapRow (w (ix1 e)) := by
  refine (broadcastInDim_apply _ hb1 _ (ix2 e (0 : Fin 1)) (ix1 e) (fun a => ?_)).trans ?_
  · match a with
    | ⟨0, _⟩ => exact (if_neg (show ¬ (6400000 : Nat) = 1 by decide)).symm
  · rfl

/-- The first two columns of the table read at `(r, col)`: the table at `(r, col)`. -/
theorem cols_apply (hs : S100000x8.Slices ![0, 0] S100000x2) (X : S100000x8.Idx → α) (r : Fin 100000) (col : Fin 2) :
    extractStridedSlice S100000x2 ![0, 0] X hs (ix2 r col) = X (ix2 r (⟨col.val, by omega⟩ : Fin 8)) :=
  slice2_axis1_apply 0 X hs r col ⟨col.val, by omega⟩ (Nat.zero_add _).symm

/-- The gather of rows of the table's first two columns at the wrapped row numbers, read at `(e, col)`. -/
theorem gathered_apply (hb0 : S_.BroadcastsInDim S6400000 (![] : Fin 0 → Fin S6400000.rank))
    (hb1 : S6400000.BroadcastsInDim S6400000x1 (![0] : Fin 1 → Fin S6400000x1.rank))
    (hs : S100000x8.Slices ![0, 0] S100000x2)
    (X : S100000x8.Idx → α) (w : IVec S6400000 32) (e : Fin 6400000) (col : Fin 2) :
    Host.gather gather_S100000x2_S6400000x1_S6400000x2_1_0_n_n_0_1_12 (extractStridedSlice S100000x2 ![0, 0] X hs)
        (broadcastInDim S6400000x1 ![0] hb1
          (select (cmpi .slt w (broadcastInDim S6400000 ![] hb0 (constantI S_ 32 0#32)))
            (addi w (broadcastInDim S6400000 ![] hb0 (constantI S_ 32 100000#32))) w)) (ix2 e col)
      = X (ix2 (Cert.Spec.rowOf (w (ix1 e))) (⟨col.val, by omega⟩ : Fin 8)) := by
  refine (Cert.GatherRows.gather_rows_apply (N := 100000) (C := 2) (M := 6400000) (by decide)
    Facts₀.gather_S100000x2_S6400000x1_S6400000x2_1_0_n_n_0_1_12_wf _ _ e col).trans ?_
  rw [wrapped_apply hb0 hb1 w e]
  exact cols_apply hs X _ col

end Reads

variable {F : FTy → Type} [FloatOps F] (m : (ℓ : Loc nD τ sig) → Buf (Elt F) ℓ)

/-! ## The three operands -/

/-- The first operand at `(e, col)`: the table at the source node's row, column `col`. -/
theorem V_src (c : Dev nD) (e : Fin 6400000) (col : Fin 2) :
    (Gen.V m c main_v7 : S6400000x2.Idx → Elt F .f32) (ix2 e col)
      = (m ((c : Thread nD τ).loc main_arg0) : S100000x8.Idx → Elt F .f32)
          (ix2 (Cert.Spec.rowOf ((m ((c : Thread nD τ).loc main_arg1) : S6400000.Idx → BitVec 32) (ix1 e))) (⟨col.val, by omega⟩ : Fin 8)) := by
  have h : (Gen.V m c main_v7 : S6400000x2.Idx → Elt F .f32)
      = Host.gather gather_S100000x2_S6400000x1_S6400000x2_1_0_n_n_0_1_12
          (extractStridedSlice S100000x2 ![0, 0] (m ((c : Thread nD τ).loc main_arg0) : S100000x8.Idx → Elt F .f32) Facts₀.slices_S100000x8_S100000x2_0_0)
          (broadcastInDim S6400000x1 ![0] Facts₀.bcast_S6400000_S6400000x1_0
            (select (cmpi .slt (m ((c : Thread nD τ).loc main_arg1) : S6400000.Idx → BitVec 32) (broadcastInDim S6400000 ![] Facts₀.bcast_S_S6400000 (constantI S_ 32 0#32)))
              (addi (m ((c : Thread nD τ).loc main_arg1) : S6400000.Idx → BitVec 32) (broadcastInDim S6400000 ![] Facts₀.bcast_S_S6400000 (constantI S_ 32 100000#32)))
              (m ((c : Thread nD τ).loc main_arg1) : S6400000.Idx → BitVec 32))) := by
    dsimp only [Gen.V, Gen.hostOps0]; after_results
  rw [h]
  exact gathered_apply _ _ _ _ _ e col

/-- The second operand at `(e, col)`: the table at the destination node's row, column `col`. -/
theorem V_dst (c : Dev nD) (e : Fin 6400000) (col : Fin 2) :
    (Gen.V m c main_v14 : S6400000x2.Idx → Elt F .f32) (ix2 e col)
      = (m ((c : Thread nD τ).loc main_arg0) : S100000x8.Idx → Elt F .f32)
          (ix2 (Cert.Spec.rowOf ((m ((c : Thread nD τ).loc main_arg2) : S6400000.Idx → BitVec 32) (ix1 e))) (⟨col.val, by omega⟩ : Fin 8)) := by
  have h : (Gen.V m c main_v14 : S6400000x2.Idx → Elt F .f32)
      = Host.gather gather_S100000x2_S6400000x1_S6400000x2_1_0_n_n_0_1_12
          (extractStridedSlice S100000x2 ![0, 0] (m ((c : Thread nD τ).loc main_arg0) : S100000x8.Idx → Elt F .f32) Facts₀.slices_S100000x8_S100000x2_0_0)
          (broadcastInDim S6400000x1 ![0] Facts₀.bcast_S6400000_S6400000x1_0
            (select (cmpi .slt (m ((c : Thread nD τ).loc main_arg2) : S6400000.Idx → BitVec 32) (broadcastInDim S6400000 ![] Facts₀.bcast_S_S6400000 (constantI S_ 32 0#32)))
              (addi (m ((c : Thread nD τ).loc main_arg2) : S6400000.Idx → BitVec 32) (broadcastInDim S6400000 ![] Facts₀.bcast_S_S6400000 (constantI S_ 32 100000#32)))
              (m ((c : Thread nD τ).loc main_arg2) : S6400000.Idx → BitVec 32))) := by
    dsimp only [Gen.V, Gen.hostOps0]; after_results
  rw [h]
  exact gathered_apply _ _ _ _ _ e col

/-- The literal table of the centres is the specification's. -/
theorem lit0_eq (i : Fin 3) : lit0 i = Cert.Spec.ctrWord i :=
  match i with
  | ⟨0, _⟩ => rfl
  | ⟨1, _⟩ => rfl
  | ⟨2, _⟩ => rfl

/-- The third operand at `(i, 0)`: the float whose word is the `i`-th centre's. -/
theorem V_cen (c : Dev nD) (i : Fin 3) :
    (Gen.V m c main_v15 : S3x1.Idx → Elt F .f32) (ix2 i (0 : Fin 1)) = FloatOps.ofBits .f32 (Cert.Spec.ctrWord i) := by
  have h : (Gen.V m c main_v15 : S3x1.Idx → Elt F .f32)
      = shapeCast S3x1 (fun j : S3.Idx => (FloatOps.ofBits .f32 (lit0 (S3.rowMajor j)) : Elt F .f32)) Facts₀.shapeCasts_S3_S3x1 := by
    dsimp only [Gen.V, Gen.hostOps0]; after_results; rfl
  have hk : (S3.rowMajor (ix1 i)).val = (S3x1.rowMajor (ix2 i (0 : Fin 1))).val := by
    rw [Shape.rowMajor_val_one, Shape.rowMajor_val_two]
    show i.val = i.val * 1 + 0
    omega
  have hr : S3.rowMajor (ix1 i) = i := Fin.ext (Shape.rowMajor_val_one (ix1 i))
  rw [h]
  refine (shapeCast_apply _ Facts₀.shapeCasts_S3_S3x1 (ix2 i (0 : Fin 1)) (ix1 i) hk).trans ?_
  show FloatOps.ofBits .f32 (lit0 (S3.rowMajor (ix1 i))) = _
  rw [hr, lit0_eq]

end Cert.KernelIdeal.Entry

end
-- ==== Proof.Final.lean ====
/-
  The result array after the idealized kernel's run, as one function of the argument arrays.

  Point `t` of the grid writes back the rows of its result block that lie inside the array: rows
  `4096·t … 4096·t + 4095`, at the last point (`t = 1562`) only `… + 2047`. Row `r` of the block is computed from
  row `r` of the point's two coordinate blocks, which are rows `4096·t + r` of the gathered coordinates: the feature
  table's first two columns at the row the edge's source (destination) word names. So what point `t` writes back is
  block `t` of the specification `Spec.G` of the argument arrays; the 1563 blocks cover the 6400000 rows, hence the
  array ends holding `Spec.G`.
-/
import proofs.«127756_j76991583748342_2_alg».proof.Proof.Body
import proofs.«127756_j76991583748342_2_alg».proof.Proof.Payload
import proofs.«127756_j76991583748342_2_alg».proof.Proof.Entry
import proofs.«127756_j76991583748342_2_alg».proof.Proof.Spec

set_option maxRecDepth 16384

noncomputable section

namespace Cert.KernelIdeal.Final

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps, decided over the grid: the three moving windows' block index is the point on the row
    axis and zero on the column axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_3.index t (0 : Fin 2) = t.val ∧ win0_3.index t (1 : Fin 2) = 0 :=
  (by decide +kernel : ∀ t : Fin grid0.N, _)

/-- The rows of a block inside the array: 4096, at the last point 2048; every column is inside. -/
theorem xsize_facts : ∀ t : Fin cfg0.N, win0_3.xsize (grid0.coords t) (0 : Fin 2) = (if t.val = 1562 then 2048 else 4096)
    ∧ win0_3.xsize (grid0.coords t) (1 : Fin 2) = 9 :=
  (by decide +kernel : ∀ t : Fin grid0.N, _)

/-- The specification of the argument arrays core `c` was launched with. -/
abbrev Gk (c : Dev nD) : S6400000x9.Idx → Elt Ideal .f32 :=
  Cert.Spec.G (m ((c : Thread nD τ).loc main_arg0)) (m ((c : Thread nD τ).loc main_arg1)) (m ((c : Thread nD τ).loc main_arg2))

/-- A zero-filled source block at a row inside the array is the gathered source coordinates at that edge. -/
theorem src8_apply (c : Dev nD) (t : Fin cfg0.N) (r : Fin 4096) (col : Fin 2) (hr : r.val < win0_0.xsize (grid0.coords t) 0)
    (e : Fin 6400000) (he : e.val = t.val * 4096 + r.val) :
    Body.src8 m c t (ix2 r col) = (V m c main_v7 : S6400000x2.Idx → Elt Ideal .f32) (ix2 e col) := by
  unfold Body.src8 Window.fill
  rw [dif_pos ((win0_0.moved_iff _ _).mpr fun a => by
    match a with
    | ⟨0, _⟩ => exact hr
    | ⟨1, _⟩ => show col.val < win0_0.xsize (grid0.coords t) 1; rw [Body.xsize_0_1]; exact col.isLt)]
  unfold Body.srcBlk iblk
  rw [View.read_apply]
  show (V m c main_v7 : S6400000x2.Idx → Elt Ideal .f32) (((cfg0.win 0).blk t).view.emb _) = _
  refine congrArg (V m c main_v7 : S6400000x2.Idx → Elt Ideal .f32) (funext fun a => Fin.ext ?_)
  obtain ⟨e0, e1, -⟩ := idx_facts t
  match a with
  | ⟨0, _⟩ => show win0_0.index t (0 : Fin 2) * 4096 + 1 * r.val = e.val; rw [e0, he]; omega
  | ⟨1, _⟩ => show win0_0.index t (1 : Fin 2) * 2 + 1 * col.val = col.val; rw [e1]; omega

/-- The same for the destination block. -/
theorem dst8_apply (c : Dev nD) (t : Fin cfg0.N) (r : Fin 4096) (col : Fin 2) (hr : r.val < win0_0.xsize (grid0.coords t) 0)
    (e : Fin 6400000) (he : e.val = t.val * 4096 + r.val) :
    Body.dst8 m c t (ix2 r col) = (V m c main_v14 : S6400000x2.Idx → Elt Ideal .f32) (ix2 e col) := by
  unfold Body.dst8 Window.fill
  rw [dif_pos ((win0_1.moved_iff _ _).mpr fun a => by
    match a with
    | ⟨0, _⟩ => show r.val < win0_1.xsize (grid0.coords t) 0; rw [Body.xsize_1_0]; exact hr
    | ⟨1, _⟩ => show col.val < win0_1.xsize (grid0.coords t) 1; rw [Body.xsize_1_1]; exact col.isLt)]
  unfold Body.dstBlk iblk
  rw [View.read_apply]
  show (V m c main_v14 : S6400000x2.Idx → Elt Ideal .f32) (((cfg0.win 1).blk t).view.emb _) = _
  refine congrArg (V m c main_v14 : S6400000x2.Idx → Elt Ideal .f32) (funext fun a => Fin.ext ?_)
  obtain ⟨-, -, e2, e3, -⟩ := idx_facts t
  match a with
  | ⟨0, _⟩ => show win0_1.index t (0 : Fin 2) * 4096 + 1 * r.val = e.val; rw [e2, he]; omega
  | ⟨1, _⟩ => show win0_1.index t (1 : Fin 2) * 2 + 1 * col.val = col.val; rw [e3]; omega

/-- The centres' block is the centres' column. -/
theorem cen3_apply (c : Dev nD) (t : Fin cfg0.N) (i : Fin 3) :
    Body.cen3 m c t (ix2 i (0 : Fin 1)) = Cert.Spec.ctr i := by
  unfold Body.cen3 iblk
  rw [View.read_apply]
  show (V m c main_v15 : S3x1.Idx → Elt Ideal .f32) (((cfg0.win 2).blk t).view.emb _) = _
  have hidx : ((cfg0.win 2).blk t).view.emb (ix2 i (0 : Fin 1)) = ix2 i (0 : Fin 1) := by
    funext a; apply Fin.ext
    match a with
    | ⟨0, _⟩ => show win0_2.index t (0 : Fin 2) * 3 + 1 * i.val = i.val; rw [show win0_2.index t (0 : Fin 2) = 0 from rfl]; omega
    | ⟨1, _⟩ => show win0_2.index t (1 : Fin 2) * 1 + 1 * 0 = 0; rw [show win0_2.index t (1 : Fin 2) = 0 from rfl]
  rw [hidx, Entry.V_cen m c i]
  rfl

/-- WHAT POINT `t` WRITES BACK is block `t` of the specification. -/
theorem flushed_eq (c : Dev nD) (t : Fin cfg0.N) :
    (Body.dats m 0 c).flushed 3 t = ((cfg0.win 3).blk t).view.read (Elt Ideal) (Gk m c) := by
  show (cfg0.win 3).cut (grid0.coords t) ((Body.dats m 0 c).after 3 t) = _
  rw [Body.after0_3]
  funext y
  rw [View.read_apply]
  show Body.out0_3 _ _ _ (win0_3.xinj (grid0.coords t) y) = Gk m c (((cfg0.win 3).blk t).view.emb y)
  rw [Body.out0_3_eq]
  obtain ⟨-, -, -, -, e4, e5⟩ := idx_facts t
  obtain ⟨x0, x1⟩ := xsize_facts t
  have ht : t.val < 1563 := t.isLt
  have hy0 : (y 0).val < win0_3.xsize (grid0.coords t) 0 := (y 0).isLt
  have hy1 : (y 1).val < win0_3.xsize (grid0.coords t) 1 := (y 1).isLt
  have hr : (y 0).val < 4096 := Nat.lt_of_lt_of_le hy0 (win0_3.xsize_le _ 0)
  have hk : (y 1).val < 9 := Nat.lt_of_lt_of_le hy1 (win0_3.xsize_le _ 1)
  have he : t.val * 4096 + (y 0).val < 6400000 := by
    rw [x0] at hy0
    split at hy0 <;> omega
  have hx : win0_3.xinj (grid0.coords t) y = ix2 (⟨(y 0).val, hr⟩ : Fin 4096) (⟨(y 1).val, hk⟩ : Fin 9) :=
    funext fun a => Fin.ext (by match a with | ⟨0, _⟩ => rfl | ⟨1, _⟩ => rfl)
  have hemb : ((cfg0.win 3).blk t).view.emb y = ix2 (⟨t.val * 4096 + (y 0).val, he⟩ : Fin 6400000) (⟨(y 1).val, hk⟩ : Fin 9) := by
    funext a; apply Fin.ext
    match a with
    | ⟨0, _⟩ => show win0_3.index t (0 : Fin 2) * 4096 + 1 * (y 0).val = t.val * 4096 + (y 0).val; rw [e4]; omega
    | ⟨1, _⟩ => show win0_3.index t (1 : Fin 2) * 9 + 1 * (y 1).val = (y 1).val; rw [e5]; omega
  rw [hx, hemb, Pay.stored_apply]
  show _ = Cert.Spec.G _ _ _ (ix2 _ _)
  rw [Cert.Spec.G_ix2]
  unfold Cert.Spec.at_
  have hr0 : (⟨(y 0).val, hr⟩ : Fin 4096).val < win0_0.xsize (grid0.coords t) 0 := hy0
  rw [src8_apply m c t _ 0 hr0 ⟨t.val * 4096 + (y 0).val, he⟩ rfl, src8_apply m c t _ 1 hr0 ⟨t.val * 4096 + (y 0).val, he⟩ rfl,
    dst8_apply m c t _ 0 hr0 ⟨t.val * 4096 + (y 0).val, he⟩ rfl, dst8_apply m c t _ 1 hr0 ⟨t.val * 4096 + (y 0).val, he⟩ rfl,
    Entry.V_src m c _ 0, Entry.V_src m c _ 1, Entry.V_dst m c _ 0, Entry.V_dst m c _ 1]
  have hc : (fun i : Fin 3 => Body.cen3 m c t (ix2 i (0 : Fin 1))) = Cert.Spec.ctr := funext fun i => cen3_apply m c t i
  rw [hc]
  rfl

/-- An index of the result array is in point `t`'s block iff each coordinate is in the block's range inside the array. -/
theorem mem_blk (t : Fin cfg0.N) (i : S6400000x9.Idx) :
    i ∈ ((cfg0.win 3).blk t).view.set ↔ ∀ a : Fin 2, win0_3.index t a * S4096x9.size a ≤ (i a).val
      ∧ (i a).val < win0_3.index t a * S4096x9.size a + win0_3.xsize (grid0.coords t) a := by
  show i ∈ ((View.whole main_v16).slice (win0_3.rect t)).set ↔ _
  rw [View.set_slice_whole, Rect.mem_set_unit]
  exact Iff.rfl

/-- Every index of the result array is in the block of the point its row falls in. -/
theorem cover (i : S6400000x9.Idx) : ∃ t : Fin cfg0.N, (cfg0.win 3).flush t = true ∧ i ∈ ((cfg0.win 3).blk t).view.set := by
  have hi0 : (i 0).val < 6400000 := (i 0).isLt
  have hi1 : (i 1).val < 9 := (i 1).isLt
  have hN : cfg0.N = 1563 := N_0
  let t : Fin cfg0.N := ⟨(i 0).val / 4096, by rw [hN]; omega⟩
  refine ⟨t, flush0_3 t, ?_⟩
  rw [mem_blk]
  obtain ⟨-, -, -, -, e4, e5⟩ := idx_facts t
  obtain ⟨x0, x1⟩ := xsize_facts t
  have htv : t.val = (i 0).val / 4096 := rfl
  intro a
  match a with
  | ⟨0, _⟩ =>
    show win0_3.index t (0 : Fin 2) * 4096 ≤ (i 0).val ∧ (i 0).val < win0_3.index t (0 : Fin 2) * 4096 + win0_3.xsize (grid0.coords t) (0 : Fin 2)
    rw [e4, x0, htv]
    split <;> omega
  | ⟨1, _⟩ =>
    show win0_3.index t (1 : Fin 2) * 9 ≤ (i 1).val ∧ (i 1).val < win0_3.index t (1 : Fin 2) * 9 + win0_3.xsize (grid0.coords t) (1 : Fin 2)
    rw [e5, x1]; omega

/-- THE RESULT ARRAY after the run is the specification of the argument arrays. -/
theorem final (c : Dev nD) : (Body.dats m 0 c).arrAt 3 cfg0.N = Gk m c :=
  (Body.dats m 0 c).arrAt_eq_of_cover 3 (Gk m c) (fun t _ => flushed_eq m c t) cover

/-- The idealized kernel's run: every weakly fair execution terminates, the result array ends at the specification
    of the argument arrays, and these end unchanged. -/
theorem run : θ_run defs (onTc (τ := τ) (main (F := Ideal))) ⟨m, fun _ => 0, ρ⟩ (fun r => ∀ c : Dev nD,
      r.2.mem ((c.tc : Thread nD τ).loc main_v16) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).1 3).trans (final m c),
        ((h c).2 main_arg0 (Pipeline.mem_restRefs_of main_arg0 (by decide) (by decide))).trans (V_main_arg0 m c),
        ((h c).2 main_arg1 (Pipeline.mem_restRefs_of main_arg1 (by decide) (by decide))).trans (V_main_arg1 m c),
        ((h c).2 main_arg2 (Pipeline.mem_restRefs_of main_arg2 (by decide) (by decide))).trans (V_main_arg2 m c),
        ((h c).2 main_arg3 (Pipeline.mem_restRefs_of main_arg3 (by decide) (by decide))).trans (V_main_arg3 m c)⟩)
    (Body.run_main m ρ (fun src src' dst dst' cen r k hs hd => Pay.stored_congr_row src src' dst dst' cen r k hs hd))

end Cert.KernelIdeal.Final

end
-- ==== Proof.RefRun.lean ====
/-
  The reference program's @main, read back as a run.

  @main is a straight line of 57 host operations, none of them a kernel launch. Listed in order (`ops`), its run is
  the fold of the operations' results over the launch contents: every weakly fair execution terminates with each
  buffer at that fold, the four arguments unchanged. The fold at the result buffer is then written as ONE function
  of the argument arrays, `out`, cut into the stages the mathematics has: a node word wrapped (`wrap`), the table's
  rows gathered at the wrapped words (`rows`), one column of the gathered rows as a vector (`col0`, `col1`), the
  three membership degrees of a coordinate difference (`memb`), and the nine products reshaped to one row (`out`).
-/
import proofs.«127756_j76991583748342_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 57 operations, in order. -/
abbrev ops : List (HloOp τ sig (Elt F)) :=
  [
    nullary main_cst (fun i => FloatOps.ofBits .f32 (lit0 (S3.rowMajor i))),
    nullary main_c (constantI S_ 32 0#32),
    unary main_c main_v0 (broadcastInDim S6400000 ![] bcast_S_S6400000 : (⟨S_, .i32⟩ : BufTy).Contents (Elt F) → (⟨S6400000, .i32⟩ : BufTy).Contents (Elt F)),
    binary main_arg1 main_v0 main_v1 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v2 (broadcastInDim S6400000 ![] bcast_S_S6400000 : (⟨S_, .i32⟩ : BufTy).Contents (Elt F) → (⟨S6400000, .i32⟩ : BufTy).Contents (Elt F)),
    binary main_arg1 main_v2 main_v3 (addi : (⟨S6400000, .i32⟩ : BufTy).Contents (Elt F) → (⟨S6400000, .i32⟩ : BufTy).Contents (Elt F) → (⟨S6400000, .i32⟩ : BufTy).Contents (Elt F)),
    ternary main_v1 main_v3 main_arg1 main_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v4 main_v5 (broadcastInDim S6400000x1 ![0] bcast_S6400000_S6400000x1_0 : (⟨S6400000, .i32⟩ : BufTy).Contents (Elt F) → (⟨S6400000x1, .i32⟩ : BufTy).Contents (Elt F)),
    binary main_arg0 main_v5 main_v6 ((fun x i => Host.gather gather_S100000x8_S6400000x1_S6400000x8_1_0_n_n_0_1_18 x i) : (⟨S100000x8, .f32⟩ : BufTy).Contents (Elt F) → (⟨S6400000x1, .i32⟩ : BufTy).Contents (Elt F) → (⟨S6400000x8, .f32⟩ : BufTy).Contents (Elt F)),
    nullary main_c_1 (constantI S_ 32 0#32),
    unary main_c_1 main_v7 (broadcastInDim S6400000 ![] bcast_S_S6400000 : (⟨S_, .i32⟩ : BufTy).Contents (Elt F) → (⟨S6400000, .i32⟩ : BufTy).Contents (Elt F)),
    binary main_arg2 main_v7 main_v8 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v9 (broadcastInDim S6400000 ![] bcast_S_S6400000 : (⟨S_, .i32⟩ : BufTy).Contents (Elt F) → (⟨S6400000, .i32⟩ : BufTy).Contents (Elt F)),
    binary main_arg2 main_v9 main_v10 (addi : (⟨S6400000, .i32⟩ : BufTy).Contents (Elt F) → (⟨S6400000, .i32⟩ : BufTy).Contents (Elt F) → (⟨S6400000, .i32⟩ : BufTy).Contents (Elt F)),
    ternary main_v8 main_v10 main_arg2 main_v11 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v11 main_v12 (broadcastInDim S6400000x1 ![0] bcast_S6400000_S6400000x1_0 : (⟨S6400000, .i32⟩ : BufTy).Contents (Elt F) → (⟨S6400000x1, .i32⟩ : BufTy).Contents (Elt F)),
    binary main_arg0 main_v12 main_v13 ((fun x i => Host.gather gather_S100000x8_S6400000x1_S6400000x8_1_0_n_n_0_1_18 x i) : (⟨S100000x8, .f32⟩ : BufTy).Contents (Elt F) → (⟨S6400000x1, .i32⟩ : BufTy).Contents (Elt F) → (⟨S6400000x8, .f32⟩ : BufTy).Contents (Elt F)),
    unary main_v13 main_v14 ((extractStridedSlice S6400000x1 ![0, 0] · slices_S6400000x8_S6400000x1_0_0) : (⟨S6400000x8, .f32⟩ : BufTy).Contents (Elt F) → (⟨S6400000x1, .f32⟩ : BufTy).Contents (Elt F)),
    reshape main_v14 main_v15 rfl shapeCasts_S6400000x1_S6400000,
    unary main_v6 main_v16 ((extractStridedSlice S6400000x1 ![0, 0] · slices_S6400000x8_S6400000x1_0_0) : (⟨S6400000x8, .f32⟩ : BufTy).Contents (Elt F) → (⟨S6400000x1, .f32⟩ : BufTy).Contents (Elt F)),
    reshape main_v16 main_v17 rfl shapeCasts_S6400000x1_S6400000,
    binary main_v15 main_v17 main_v18 (subf : (⟨S6400000, .f32⟩ : BufTy).Contents (Elt F) → (⟨S6400000, .f32⟩ : BufTy).Contents (Elt F) → (⟨S6400000, .f32⟩ : BufTy).Contents (Elt F)),
    unary main_v13 main_v19 ((extractStridedSlice S6400000x1 ![0, 1] · slices_S6400000x8_S6400000x1_0_1) : (⟨S6400000x8, .f32⟩ : BufTy).Contents (Elt F) → (⟨S6400000x1, .f32⟩ : BufTy).Contents (Elt F)),
    reshape main_v19 main_v20 rfl shapeCasts_S6400000x1_S6400000,
    unary main_v6 main_v21 ((extractStridedSlice S6400000x1 ![0, 1] · slices_S6400000x8_S6400000x1_0_1) : (⟨S6400000x8, .f32⟩ : BufTy).Contents (Elt F) → (⟨S6400000x1, .f32⟩ : BufTy).Contents (Elt F)),
    reshape main_v21 main_v22 rfl shapeCasts_S6400000x1_S6400000,
    binary main_v20 main_v22 main_v23 (subf : (⟨S6400000, .f32⟩ : BufTy).Contents (Elt F) → (⟨S6400000, .f32⟩ : BufTy).Contents (Elt F) → (⟨S6400000, .f32⟩ : BufTy).Contents (Elt F)),
    unary main_v18 main_v24 (broadcastInDim S6400000x1 ![0] bcast_S6400000_S6400000x1_0 : (⟨S6400000, .f32⟩ : BufTy).Contents (Elt F) → (⟨S6400000x1, .f32⟩ : BufTy).Contents (Elt F)),
    unary main_cst main_v25 (broadcastInDim S1x3 ![1] bcast_S3_S1x3_1 : (⟨S3, .f32⟩ : BufTy).Contents (Elt F) → (⟨S1x3, .f32⟩ : BufTy).Contents (Elt F)),
    unary main_v24 main_v26 (broadcastInDim S6400000x3 ![0, 1] bcast_S6400000x1_S6400000x3_0_1 : (⟨S6400000x1, .f32⟩ : BufTy).Contents (Elt F) → (⟨S6400000x3, .f32⟩ : BufTy).Contents (Elt F)),
    unary main_v25 main_v27 (broadcastInDim S6400000x3 ![0, 1] bcast_S1x3_S6400000x3_0_1 : (⟨S1x3, .f32⟩ : BufTy).Contents (Elt F) → (⟨S6400000x3, .f32⟩ : BufTy).Contents (Elt F)),
    binary main_v26 main_v27 main_v28 (subf : (⟨S6400000x3, .f32⟩ : BufTy).Contents (Elt F) → (⟨S6400000x3, .f32⟩ : BufTy).Contents (Elt F) → (⟨S6400000x3, .f32⟩ : BufTy).Contents (Elt F)),
    binary main_v28 main_v28 main_v29 (mulf : (⟨S6400000x3, .f32⟩ : BufTy).Contents (Elt F) → (⟨S6400000x3, .f32⟩ : BufTy).Contents (Elt F) → (⟨S6400000x3, .f32⟩ : BufTy).Contents (Elt F)),
    unary main_v29 main_v30 (Host.negf : (⟨S6400000x3, .f32⟩ : BufTy).Contents (Elt F) → (⟨S6400000x3, .f32⟩ : BufTy).Contents (Elt F)),
    nullary main_cst_3 (constant S_ .f32 0x40000000#32),
    unary main_cst_3 main_v31 (broadcastInDim S6400000x3 ![] bcast_S_S6400000x3 : (⟨S_, .f32⟩ : BufTy).Contents (Elt F) → (⟨S6400000x3, .f32⟩ : BufTy).Contents (Elt F)),
    binary main_v30 main_v31 main_v32 (mulf : (⟨S6400000x3, .f32⟩ : BufTy).Contents (Elt F) → (⟨S6400000x3, .f32⟩ : BufTy).Contents (Elt F) → (⟨S6400000x3, .f32⟩ : BufTy).Contents (Elt F)),
    unary main_v32 main_v33 (Host.exp : (⟨S6400000x3, .f32⟩ : BufTy).Contents (Elt F) → (⟨S6400000x3, .f32⟩ : BufTy).Contents (Elt F)),
    unary main_v23 main_v34 (broadcastInDim S6400000x1 ![0] bcast_S6400000_S6400000x1_0 : (⟨S6400000, .f32⟩ : BufTy).Contents (Elt F) → (⟨S6400000x1, .f32⟩ : BufTy).Contents (Elt F)),
    unary main_cst main_v35 (broadcastInDim S1x3 ![1] bcast_S3_S1x3_1 : (⟨S3, .f32⟩ : BufTy).Contents (Elt F) → (⟨S1x3, .f32⟩ : BufTy).Contents (Elt F)),
    unary main_v34 main_v36 (broadcastInDim S6400000x3 ![0, 1] bcast_S6400000x1_S6400000x3_0_1 : (⟨S6400000x1, .f32⟩ : BufTy).Contents (Elt F) → (⟨S6400000x3, .f32⟩ : BufTy).Contents (Elt F)),
    unary main_v35 main_v37 (broadcastInDim S6400000x3 ![0, 1] bcast_S1x3_S6400000x3_0_1 : (⟨S1x3, .f32⟩ : BufTy).Contents (Elt F) → (⟨S6400000x3, .f32⟩ : BufTy).Contents (Elt F)),
    binary main_v36 main_v37 main_v38 (subf : (⟨S6400000x3, .f32⟩ : BufTy).Contents (Elt F) → (⟨S6400000x3, .f32⟩ : BufTy).Contents (Elt F) → (⟨S6400000x3, .f32⟩ : BufTy).Contents (Elt F)),
    binary main_v38 main_v38 main_v39 (mulf : (⟨S6400000x3, .f32⟩ : BufTy).Contents (Elt F) → (⟨S6400000x3, .f32⟩ : BufTy).Contents (Elt F) → (⟨S6400000x3, .f32⟩ : BufTy).Contents (Elt F)),
    unary main_v39 main_v40 (Host.negf : (⟨S6400000x3, .f32⟩ : BufTy).Contents (Elt F) → (⟨S6400000x3, .f32⟩ : BufTy).Contents (Elt F)),
    nullary main_cst_4 (constant S_ .f32 0x40000000#32),
    unary main_cst_4 main_v41 (broadcastInDim S6400000x3 ![] bcast_S_S6400000x3 : (⟨S_, .f32⟩ : BufTy).Contents (Elt F) → (⟨S6400000x3, .f32⟩ : BufTy).Contents (Elt F)),
    binary main_v40 main_v41 main_v42 (mulf : (⟨S6400000x3, .f32⟩ : BufTy).Contents (Elt F) → (⟨S6400000x3, .f32⟩ : BufTy).Contents (Elt F) → (⟨S6400000x3, .f32⟩ : BufTy).Contents (Elt F)),
    unary main_v42 main_v43 (Host.exp : (⟨S6400000x3, .f32⟩ : BufTy).Contents (Elt F) → (⟨S6400000x3, .f32⟩ : BufTy).Contents (Elt F)),
    unary main_v33 main_v44 (broadcastInDim S6400000x3x1 ![0, 1] bcast_S6400000x3_S6400000x3x1_0_1 : (⟨S6400000x3, .f32⟩ : BufTy).Contents (Elt F) → (⟨S6400000x3x1, .f32⟩ : BufTy).Contents (Elt F)),
    unary main_v43 main_v45 (broadcastInDim S6400000x1x3 ![0, 2] bcast_S6400000x3_S6400000x1x3_0_2 : (⟨S6400000x3, .f32⟩ : BufTy).Contents (Elt F) → (⟨S6400000x1x3, .f32⟩ : BufTy).Contents (Elt F)),
    unary main_v44 main_v46 (broadcastInDim S6400000x3x3 ![0, 1, 2] bcast_S6400000x3x1_S6400000x3x3_0_1_2 : (⟨S6400000x3x1, .f32⟩ : BufTy).Contents (Elt F) → (⟨S6400000x3x3, .f32⟩ : BufTy).Contents (Elt F)),
    unary main_v45 main_v47 (broadcastInDim S6400000x3x3 ![0, 1, 2] bcast_S6400000x1x3_S6400000x3x3_0_1_2 : (⟨S6400000x1x3, .f32⟩ : BufTy).Contents (Elt F) → (⟨S6400000x3x3, .f32⟩ : BufTy).Contents (Elt F)),
    binary main_v46 main_v47 main_v48 (mulf : (⟨S6400000x3x3, .f32⟩ : BufTy).Contents (Elt F) → (⟨S6400000x3x3, .f32⟩ : BufTy).Contents (Elt F) → (⟨S6400000x3x3, .f32⟩ : BufTy).Contents (Elt F)),
    reshape main_v48 main_v49 rfl shapeCasts_S6400000x3x3_S6400000x9 ]

set_option maxRecDepth 4096 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., unary_bufs_sub .., nullary_bufs_sub .., unary_bufs_sub .., binary_bufs_sub .., unary_bufs_sub .., unary_bufs_sub .., unary_bufs_sub .., unary_bufs_sub .., unary_bufs_sub .., binary_bufs_sub .., binary_bufs_sub .., unary_bufs_sub .., nullary_bufs_sub .., unary_bufs_sub .., binary_bufs_sub .., unary_bufs_sub .., unary_bufs_sub .., unary_bufs_sub .., unary_bufs_sub .., unary_bufs_sub .., binary_bufs_sub .., reshape_bufs_sub ..⟩

/-! ## The result as one function of the arguments -/

/-- The three centres, as the constant table holds them. -/
def centres : (⟨S3, .f32⟩ : BufTy).Contents (Elt F) := fun i => FloatOps.ofBits .f32 (lit0 (S3.rowMajor i))

/-- A vector of node words, each negative one with the number of nodes added. -/
def wrap (w : (⟨S6400000, .i32⟩ : BufTy).Contents (Elt F)) : (⟨S6400000, .i32⟩ : BufTy).Contents (Elt F) :=
  select (cmpi .slt w (broadcastInDim S6400000 ![] bcast_S_S6400000 (constantI S_ 32 0#32) : (⟨S6400000, .i32⟩ : BufTy).Contents (Elt F)) : (⟨S6400000, .i1⟩ : BufTy).Contents (Elt F))
    (addi w (broadcastInDim S6400000 ![] bcast_S_S6400000 (constantI S_ 32 100000#32) : (⟨S6400000, .i32⟩ : BufTy).Contents (Elt F)) : (⟨S6400000, .i32⟩ : BufTy).Contents (Elt F)) w

/-- The table's rows at the wrapped node words: one row of eight columns per edge. -/
def rows (feat : (⟨S100000x8, .f32⟩ : BufTy).Contents (Elt F)) (w : (⟨S6400000, .i32⟩ : BufTy).Contents (Elt F)) : (⟨S6400000x8, .f32⟩ : BufTy).Contents (Elt F) :=
  Host.gather gather_S100000x8_S6400000x1_S6400000x8_1_0_n_n_0_1_18 feat
    (broadcastInDim S6400000x1 ![0] bcast_S6400000_S6400000x1_0 (wrap w) : (⟨S6400000x1, .i32⟩ : BufTy).Contents (Elt F))

/-- Column 0 of the gathered rows, as a vector over the edges. -/
def col0 (h : (⟨S6400000x8, .f32⟩ : BufTy).Contents (Elt F)) : (⟨S6400000, .f32⟩ : BufTy).Contents (Elt F) :=
  fun i => shapeCast S6400000 (extractStridedSlice S6400000x1 ![0, 0] h slices_S6400000x8_S6400000x1_0_0 : (⟨S6400000x1, .f32⟩ : BufTy).Contents (Elt F)) shapeCasts_S6400000x1_S6400000 i

/-- Column 1 of the gathered rows, as a vector over the edges. -/
def col1 (h : (⟨S6400000x8, .f32⟩ : BufTy).Contents (Elt F)) : (⟨S6400000, .f32⟩ : BufTy).Contents (Elt F) :=
  fun i => shapeCast S6400000 (extractStridedSlice S6400000x1 ![0, 1] h slices_S6400000x8_S6400000x1_0_1 : (⟨S6400000x1, .f32⟩ : BufTy).Contents (Elt F)) shapeCasts_S6400000x1_S6400000 i

/-- The coordinate difference against each of the three centres: `x[e] − centre[i]`. -/
def dev3 (cs : (⟨S3, .f32⟩ : BufTy).Contents (Elt F)) (x : (⟨S6400000, .f32⟩ : BufTy).Contents (Elt F)) : (⟨S6400000x3, .f32⟩ : BufTy).Contents (Elt F) :=
  subf (broadcastInDim S6400000x3 ![0, 1] bcast_S6400000x1_S6400000x3_0_1 (broadcastInDim S6400000x1 ![0] bcast_S6400000_S6400000x1_0 x : (⟨S6400000x1, .f32⟩ : BufTy).Contents (Elt F)) : (⟨S6400000x3, .f32⟩ : BufTy).Contents (Elt F))
    (broadcastInDim S6400000x3 ![0, 1] bcast_S1x3_S6400000x3_0_1 (broadcastInDim S1x3 ![1] bcast_S3_S1x3_1 cs : (⟨S1x3, .f32⟩ : BufTy).Contents (Elt F)) : (⟨S6400000x3, .f32⟩ : BufTy).Contents (Elt F))

/-- The three membership degrees of a coordinate difference: `exp (−(x[e] − centre[i])² · 2)`. -/
def memb (cs : (⟨S3, .f32⟩ : BufTy).Contents (Elt F)) (x : (⟨S6400000, .f32⟩ : BufTy).Contents (Elt F)) : (⟨S6400000x3, .f32⟩ : BufTy).Contents (Elt F) :=
  Host.exp (mulf (Host.negf (mulf (dev3 cs x) (dev3 cs x) : (⟨S6400000x3, .f32⟩ : BufTy).Contents (Elt F)) : (⟨S6400000x3, .f32⟩ : BufTy).Contents (Elt F))
    (broadcastInDim S6400000x3 ![] bcast_S_S6400000x3 (constant S_ .f32 0x40000000#32) : (⟨S6400000x3, .f32⟩ : BufTy).Contents (Elt F)) : (⟨S6400000x3, .f32⟩ : BufTy).Contents (Elt F))

/-- The nine products `mu₁[e, i] · mu₂[e, j]`, as a cube. -/
def cube (m1 m2 : (⟨S6400000x3, .f32⟩ : BufTy).Contents (Elt F)) : (⟨S6400000x3x3, .f32⟩ : BufTy).Contents (Elt F) :=
  mulf (broadcastInDim S6400000x3x3 ![0, 1, 2] bcast_S6400000x3x1_S6400000x3x3_0_1_2 (broadcastInDim S6400000x3x1 ![0, 1] bcast_S6400000x3_S6400000x3x1_0_1 m1 : (⟨S6400000x3x1, .f32⟩ : BufTy).Contents (Elt F)) : (⟨S6400000x3x3, .f32⟩ : BufTy).Contents (Elt F))
    (broadcastInDim S6400000x3x3 ![0, 1, 2] bcast_S6400000x1x3_S6400000x3x3_0_1_2 (broadcastInDim S6400000x1x3 ![0, 2] bcast_S6400000x3_S6400000x1x3_0_2 m2 : (⟨S6400000x1x3, .f32⟩ : BufTy).Contents (Elt F)) : (⟨S6400000x3x3, .f32⟩ : BufTy).Contents (Elt F))

/-- The result array from the feature table and the two vectors of node words. -/
def out (feat : (⟨S100000x8, .f32⟩ : BufTy).Contents (Elt F)) (src dst : (⟨S6400000, .i32⟩ : BufTy).Contents (Elt F)) : (⟨S6400000x9, .f32⟩ : BufTy).Contents (Elt F) :=
  fun i => shapeCast S6400000x9
    (cube (memb centres (subf (col0 (rows feat dst)) (col0 (rows feat src)) : (⟨S6400000, .f32⟩ : BufTy).Contents (Elt F)))
          (memb centres (subf (col1 (rows feat dst)) (col1 (rows feat src)) : (⟨S6400000, .f32⟩ : BufTy).Contents (Elt F))))
    shapeCasts_S6400000x3x3_S6400000x9 i

/-- The fold of @main's operations at the result buffer is `out` of the arguments' contents. -/
theorem after_v49 (V : Valuation τ sig (Elt F)) :
    after ops V (Proc.devRef .tc main_v49) = out (V (Proc.devRef .tc main_arg0)) (V (Proc.devRef .tc main_arg1)) (V (Proc.devRef .tc main_arg2)) := by
  after_results_simp
  rfl

/-- On every device, for any float values, from any memory with zero counters: every weakly fair execution of
    @main terminates with the result buffer at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v49).trans (after_v49 _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.Value

end
-- ==== Proof.RefValue.lean ====
/-
  The reference's result, read one entry at a time, is the specification.

  The run of @main leaves the result buffer at `out feat src dst` (the function of the argument arrays the run module
  states). Here that function is read at row `e` and column `k`, stage by stage:
  * a wrapped node word is the specification's `wrapRow` of the word;
  * the gathered rows read the table at the specification's row `rowOf` of the word, column by column;
  * a column of the gathered rows, as a vector, reads that column;
  * the coordinate differences against the three centres, and their membership degrees: the program computes
    `exp (−(d·d) · 2)` where the specification writes `exp ((0 − d·d) · 2)`, the same extended real;
  * the cube of products reads `mu₁[e, i] · mu₂[e, j]`, and the reshape of `[E, 3, 3]` to `[E, 9]` reads the cube at
    `(e, k / 3, k % 3)`, row-major position `9·e + k` on both sides.
-/
import proofs.«127756_j76991583748342_2_alg».proof.Proof.RefRun
import proofs.«127756_j76991583748342_2_alg».proof.Proof.Spec
import Idealize.ShloMosaic.Lib.ValueIdx
import Idealize.ShloMosaic.Lib.ValueLayout
import Idealize.ShloMosaic.PureOps.Ideal.Laws

noncomputable section

namespace Cert.RefSide

open Cert.ReferenceIdeal Cert.ReferenceIdeal.Gen Idealize.ShloMosaic Idealize.ShloMosaic.ValueIdx Idealize.ShloMosaic.TcCoe Idealize.SL.Sem
open Cert.ReferenceIdeal.Value (centres wrap rows col0 col1 dev3 memb cube out)

/-! ## The broadcasts and the reshapes of this program, read at an index -/

section Layout
variable {α : Type}

/-- A scalar broadcast to `[E, 3]` reads the scalar everywhere. -/
theorem bcast_scalar_E3 (x : S_.Idx → α) (j : S6400000x3.Idx) :
    broadcastInDim S6400000x3 ![] bcast_S_S6400000x3 x j = x ix0 := by
  unfold broadcastInDim; exact congrArg x (funext fun a => a.elim0)

/-- A scalar broadcast to `[E]` reads the scalar everywhere. -/
theorem bcast_scalar_E (x : S_.Idx → α) (j : S6400000.Idx) :
    broadcastInDim S6400000 ![] bcast_S_S6400000 x j = x ix0 := by
  unfold broadcastInDim; exact congrArg x (funext fun a => a.elim0)

/-- A vector over the edges made a one-column matrix reads, at `(e, u)`, the vector at `e`. -/
theorem bcast_E_E1 (x : S6400000.Idx → α) (e : Fin 6400000) (u : Fin 1) :
    broadcastInDim S6400000x1 ![0] bcast_S6400000_S6400000x1_0 x (ix2 e u) = x (ix1 e) :=
  broadcastInDim_apply ![0] _ x (ix2 e u) (ix1 e) (fun a => by
    match a with
    | ⟨0, _⟩ =>
      show e.val = if 6400000 = 1 then 0 else e.val
      rfl)

/-- A one-column matrix copied into three columns reads, at `(e, i)`, its column at `e`. -/
theorem bcast_E1_E3 (x : S6400000x1.Idx → α) (e : Fin 6400000) (i : Fin 3) :
    broadcastInDim S6400000x3 ![0, 1] bcast_S6400000x1_S6400000x3_0_1 x (ix2 e i) = x (ix2 e (0 : Fin 1)) :=
  broadcastInDim_apply ![0, 1] _ x (ix2 e i) (ix2 e (0 : Fin 1)) (fun a => by
    match a with
    | ⟨0, _⟩ =>
      show e.val = if 6400000 = 1 then 0 else e.val
      rfl
    | ⟨1, _⟩ =>
      show 0 = if 1 = 1 then 0 else i.val
      rfl)

/-- The three centres made a one-row matrix read, at `(u, i)`, centre `i`. -/
theorem bcast_3_13 (x : S3.Idx → α) (u : Fin 1) (i : Fin 3) :
    broadcastInDim S1x3 ![1] bcast_S3_S1x3_1 x (ix2 u i) = x (ix1 i) :=
  broadcastInDim_apply ![1] _ x (ix2 u i) (ix1 i) (fun a => by
    match a with
    | ⟨0, _⟩ =>
      show i.val = if 3 = 1 then 0 else i.val
      rfl)

/-- A one-row matrix copied down the edges reads, at `(e, i)`, its row at `i`. -/
theorem bcast_13_E3 (x : S1x3.Idx → α) (e : Fin 6400000) (i : Fin 3) :
    broadcastInDim S6400000x3 ![0, 1] bcast_S1x3_S6400000x3_0_1 x (ix2 e i) = x (ix2 (0 : Fin 1) i) :=
  broadcastInDim_apply ![0, 1] _ x (ix2 e i) (ix2 (0 : Fin 1) i) (fun a => by
    match a with
    | ⟨0, _⟩ =>
      show 0 = if 1 = 1 then 0 else e.val
      rfl
    | ⟨1, _⟩ =>
      show i.val = if 3 = 1 then 0 else i.val
      rfl)

/-- `[E, 3]` given a trailing unit axis reads, at `(e, i, u)`, the matrix at `(e, i)`. -/
theorem bcast_E3_E31 (x : S6400000x3.Idx → α) (e : Fin 6400000) (i : Fin 3) (u : Fin 1) :
    broadcastInDim S6400000x3x1 ![0, 1] bcast_S6400000x3_S6400000x3x1_0_1 x (ix3 e i u) = x (ix2 e i) :=
  broadcastInDim_apply ![0, 1] _ x (ix3 e i u) (ix2 e i) (fun a => by
    match a with
    | ⟨0, _⟩ =>
      show e.val = if 6400000 = 1 then 0 else e.val
      rfl
    | ⟨1, _⟩ =>
      show i.val = if 3 = 1 then 0 else i.val
      rfl)

/-- `[E, 3]` given a middle unit axis reads, at `(e, u, j)`, the matrix at `(e, j)`. -/
theorem bcast_E3_E13 (x : S6400000x3.Idx → α) (e : Fin 6400000) (u : Fin 1) (j : Fin 3) :
    broadcastInDim S6400000x1x3 ![0, 2] bcast_S6400000x3_S6400000x1x3_0_2 x (ix3 e u j) = x (ix2 e j) :=
  broadcastInDim_apply ![0, 2] _ x (ix3 e u j) (ix2 e j) (fun a => by
    match a with
    | ⟨0, _⟩ =>
      show e.val = if 6400000 = 1 then 0 else e.val
      rfl
    | ⟨1, _⟩ =>
      show j.val = if 3 = 1 then 0 else j.val
      rfl)

/-- `[E, 3, 1]` copied along its last axis reads, at `(e, i, j)`, the operand at `(e, i, 0)`. -/
theorem bcast_E31_E33 (x : S6400000x3x1.Idx → α) (e : Fin 6400000) (i j : Fin 3) :
    broadcastInDim S6400000x3x3 ![0, 1, 2] bcast_S6400000x3x1_S6400000x3x3_0_1_2 x (ix3 e i j) = x (ix3 e i (0 : Fin 1)) :=
  broadcastInDim_apply ![0, 1, 2] _ x (ix3 e i j) (ix3 e i (0 : Fin 1)) (fun a => by
    match a with
    | ⟨0, _⟩ =>
      show e.val = if 6400000 = 1 then 0 else e.val
      rfl
    | ⟨1, _⟩ =>
      show i.val = if 3 = 1 then 0 else i.val
      rfl
    | ⟨2, _⟩ =>
      show 0 = if 1 = 1 then 0 else j.val
      rfl)

/-- `[E, 1, 3]` copied along its middle axis reads, at `(e, i, j)`, the operand at `(e, 0, j)`. -/
theorem bcast_E13_E33 (x : S6400000x1x3.Idx → α) (e : Fin 6400000) (i j : Fin 3) :
    broadcastInDim S6400000x3x3 ![0, 1, 2] bcast_S6400000x1x3_S6400000x3x3_0_1_2 x (ix3 e i j) = x (ix3 e (0 : Fin 1) j) :=
  broadcastInDim_apply ![0, 1, 2] _ x (ix3 e i j) (ix3 e (0 : Fin 1) j) (fun a => by
    match a with
    | ⟨0, _⟩ =>
      show e.val = if 6400000 = 1 then 0 else e.val
      rfl
    | ⟨1, _⟩ =>
      show 0 = if 1 = 1 then 0 else i.val
      rfl
    | ⟨2, _⟩ =>
      show j.val = if 3 = 1 then 0 else j.val
      rfl)

/-- A one-column matrix over the edges reshaped to a vector reads, at `e`, the column at `(e, 0)`. -/
theorem cast_E1_E (x : S6400000x1.Idx → α) (e : Fin 6400000) :
    shapeCast S6400000 x shapeCasts_S6400000x1_S6400000 (ix1 e) = x (ix2 e (0 : Fin 1)) :=
  shapeCast_apply x _ (ix1 e) (ix2 e (0 : Fin 1)) (by
    rw [Shape.rowMajor_val_two, Shape.rowMajor_val_one]
    show e.val * 1 + 0 = e.val
    omega)

/-- The cube `[E, 3, 3]` reshaped to `[E, 9]` reads, at `(e, k)`, the cube at `(e, k / 3, k % 3)`: both are position
    `9·e + k` in row-major order. -/
theorem cast_E33_E9 (x : S6400000x3x3.Idx → α) (e : Fin 6400000) (k : Fin 9) :
    shapeCast S6400000x9 x shapeCasts_S6400000x3x3_S6400000x9 (ix2 e k) = x (ix3 e (Cert.Spec.ruleI k) (Cert.Spec.ruleJ k)) :=
  shapeCast_apply x _ (ix2 e k) (ix3 e (Cert.Spec.ruleI k) (Cert.Spec.ruleJ k)) (by
    rw [Shape.rowMajor_val_three, Shape.rowMajor_val_two]
    show (e.val * 3 + k.val / 3) * 3 + k.val % 3 = e.val * 9 + k.val
    omega)

end Layout

/-! ## The stages, read at an index -/

/-- A wrapped node word is the specification's `wrapRow` of the word. -/
theorem wrap_apply (w : IVec S6400000 32) (e : Fin 6400000) :
    wrap (F := Ideal) w (ix1 e) = Cert.Spec.wrapRow (w (ix1 e)) := by
  show Scalar.select (IntOp.cmpi .slt (w (ix1 e)) (broadcastInDim S6400000 ![] bcast_S_S6400000 (constantI S_ 32 0#32) (ix1 e)))
      (IntOp.addi (w (ix1 e)) (broadcastInDim S6400000 ![] bcast_S_S6400000 (constantI S_ 32 100000#32) (ix1 e))) (w (ix1 e)) = _
  rw [bcast_scalar_E, bcast_scalar_E]
  rfl

/-- The gathered rows read the table at the specification's row of the node word, column by column. -/
theorem rows_apply (feat : FVec Ideal S100000x8 .f32) (w : IVec S6400000 32) (e : Fin 6400000) (c : Fin 8) :
    rows (F := Ideal) feat w (ix2 e c) = feat (ix2 (Cert.Spec.rowOf (w (ix1 e))) c) := by
  show Host.gather (Cert.GatherRows.rowDims 100000 8 6400000 gather_S100000x8_S6400000x1_S6400000x8_1_0_n_n_0_1_18_wf) feat
      (broadcastInDim S6400000x1 ![0] bcast_S6400000_S6400000x1_0 (wrap (F := Ideal) w)) (ix2 e c) = _
  refine (Cert.GatherRows.gather_rows_apply (by decide) _ feat _ e c).trans ?_
  rw [bcast_E_E1, wrap_apply]
  rfl

/-- Column 0 of the gathered rows, as a vector, reads column 0. -/
theorem col0_apply (h : FVec Ideal S6400000x8 .f32) (e : Fin 6400000) :
    col0 (F := Ideal) h (ix1 e) = h (ix2 e (0 : Fin 8)) := by
  show shapeCast S6400000 (extractStridedSlice S6400000x1 ![0, 0] h slices_S6400000x8_S6400000x1_0_0) shapeCasts_S6400000x1_S6400000 (ix1 e) = _
  rw [cast_E1_E]
  exact slice2_axis1_apply 0 h _ e (0 : Fin 1) (0 : Fin 8) rfl

/-- Column 1 of the gathered rows, as a vector, reads column 1. -/
theorem col1_apply (h : FVec Ideal S6400000x8 .f32) (e : Fin 6400000) :
    col1 (F := Ideal) h (ix1 e) = h (ix2 e (1 : Fin 8)) := by
  show shapeCast S6400000 (extractStridedSlice S6400000x1 ![0, 1] h slices_S6400000x8_S6400000x1_0_1) shapeCasts_S6400000x1_S6400000 (ix1 e) = _
  rw [cast_E1_E]
  exact slice2_axis1_apply 1 h _ e (0 : Fin 1) (1 : Fin 8) rfl

/-- The constant table holds the specification's centres. -/
theorem centres_apply (i : Fin 3) : centres (F := Ideal) (ix1 i) = Cert.Spec.ctr i := by
  have hi : S3.rowMajor (ix1 i) = i := Fin.ext (Shape.rowMajor_val_one (ix1 i))
  show FloatOps.ofBits (F := Ideal) .f32 (lit0 (S3.rowMajor (ix1 i))) = FloatOps.ofBits (F := Ideal) .f32 (Cert.Spec.ctrWord i)
  rw [hi]
  match i with
  | ⟨0, _⟩ => rfl
  | ⟨1, _⟩ => rfl
  | ⟨2, _⟩ => rfl

/-- The difference against centre `i` reads `x[e] − centre[i]`. -/
theorem dev3_apply (cs : FVec Ideal S3 .f32) (x : FVec Ideal S6400000 .f32) (e : Fin 6400000) (i : Fin 3) :
    dev3 (F := Ideal) cs x (ix2 e i) = x (ix1 e) - cs (ix1 i) := by
  show broadcastInDim S6400000x3 ![0, 1] bcast_S6400000x1_S6400000x3_0_1 (broadcastInDim S6400000x1 ![0] bcast_S6400000_S6400000x1_0 x) (ix2 e i)
      - broadcastInDim S6400000x3 ![0, 1] bcast_S1x3_S6400000x3_0_1 (broadcastInDim S1x3 ![1] bcast_S3_S1x3_1 cs) (ix2 e i) = _
  rw [bcast_E1_E3, bcast_E_E1, bcast_13_E3, bcast_3_13]

/-- A membership degree of the program is the specification's: `exp (−(d·d) · 2)` against `exp ((0 − d·d) · 2)`, and the
    zero word is the extended real `0`. -/
theorem memb_apply (x : FVec Ideal S6400000 .f32) (e : Fin 6400000) (i : Fin 3) :
    memb (F := Ideal) centres x (ix2 e i) = Cert.Spec.mu (F := Ideal) (x (ix1 e)) (Cert.Spec.ctr i) := by
  rw [Cert.Spec.mu_ideal, Ideal.ofBits_zero_f32, zero_sub]
  show Ideal.exp (-(dev3 (F := Ideal) centres x (ix2 e i) * dev3 (F := Ideal) centres x (ix2 e i))
      * broadcastInDim S6400000x3 ![] bcast_S_S6400000x3 (constant (F := Ideal) S_ .f32 0x40000000#32) (ix2 e i)) = _
  rw [dev3_apply, bcast_scalar_E3, centres_apply]
  rfl

/-- The cube reads the product of the two membership degrees. -/
theorem cube_apply (m1 m2 : FVec Ideal S6400000x3 .f32) (e : Fin 6400000) (i j : Fin 3) :
    cube (F := Ideal) m1 m2 (ix3 e i j) = FloatOps.mulf (m1 (ix2 e i)) (m2 (ix2 e j)) := by
  show FloatOps.mulf
      (broadcastInDim S6400000x3x3 ![0, 1, 2] bcast_S6400000x3x1_S6400000x3x3_0_1_2 (broadcastInDim S6400000x3x1 ![0, 1] bcast_S6400000x3_S6400000x3x1_0_1 m1) (ix3 e i j))
      (broadcastInDim S6400000x3x3 ![0, 1, 2] bcast_S6400000x1x3_S6400000x3x3_0_1_2 (broadcastInDim S6400000x1x3 ![0, 2] bcast_S6400000x3_S6400000x1x3_0_2 m2) (ix3 e i j)) = _
  rw [bcast_E31_E33, bcast_E3_E31, bcast_E13_E33, bcast_E3_E13]

/-! ## The result is the specification -/

/-- The result at row `e`, column `k`. -/
theorem out_apply (feat : FVec Ideal S100000x8 .f32) (src dst : IVec S6400000 32) (e : Fin 6400000) (k : Fin 9) :
    out (F := Ideal) feat src dst (ix2 e k) = Cert.Spec.at_ feat src dst e k := by
  unfold out
  rw [cast_E33_E9, cube_apply, memb_apply, memb_apply, subf_apply, subf_apply]
  rw [col0_apply, col0_apply, col1_apply, col1_apply, rows_apply, rows_apply, rows_apply, rows_apply]
  rfl

/-- The whole result array is the specification's. -/
theorem out_eq_G (feat : FVec Ideal S100000x8 .f32) (src dst : IVec S6400000 32) :
    out (F := Ideal) feat src dst = Cert.Spec.G feat src dst := by
  funext j
  obtain ⟨e, k, rfl⟩ : ∃ (e : Fin 6400000) (k : Fin 9), j = ix2 e k := ⟨j 0, j 1, eq_ix2 j⟩
  rw [Cert.Spec.G_ix2]
  exact out_apply feat src dst e k

/-! ## The run -/

/-- On every device, from any memory with zero counters: every weakly fair execution of the reference's @main
    terminates with the result buffer at the specification of the arguments, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v49)
        = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (out_eq_G _ _ _), (h c).2⟩)
    (Cert.ReferenceIdeal.Value.run (F := Ideal) m ρ)

end Cert.RefSide

end
-- ==== Proof.lean ====
/-
  The certificate's claims.

  Both programs compute, for each of 6400000 edges, nine products of Gaussian membership degrees of the difference
  of the destination and source nodes' first two features (`Spec.G`, Proof/Spec.lean). The kernel gathers the two
  coordinate columns on the host and computes block by block, 4096 edges at a time, the last block cut at 2048; the
  reference gathers all eight feature columns and computes whole arrays. At the extended reals the two agree element
  by element: the kernel's `0 − s` is the reference's `−s`, and every other operation is the same operation on the
  same operands. No law is used that needs finiteness, so the precondition is not opened.

  The three frames: the word-level kernel and the idealized kernel by the kernel's run (Proof/Body.lean and its
  word-level twin: the body is row-wise, so the rows written back do not depend on the words past the arrays' end);
  the reference by its run with the result dropped. The idealization rewrote nothing, so `preserves` is `True`.
-/
import proofs.«127756_j76991583748342_2_alg».proof.Defs
import proofs.«127756_j76991583748342_2_alg».proof.Proof.Gen.Kernel
import proofs.«127756_j76991583748342_2_alg».proof.Proof.Gen.KernelIdeal
import proofs.«127756_j76991583748342_2_alg».proof.Proof.Gen.ReferenceIdeal
import proofs.«127756_j76991583748342_2_alg».proof.Proof.Gen.Pre_finite_inputs
import proofs.«127756_j76991583748342_2_alg».proof.Proof.BodyK
import proofs.«127756_j76991583748342_2_alg».proof.Proof.PayloadK
import proofs.«127756_j76991583748342_2_alg».proof.Proof.Final
import proofs.«127756_j76991583748342_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ =>
  Cert.Kernel.Body.frame m ρ (fun src src' dst dst' cen r k hs hd => Cert.Kernel.Pay.stored_congr_row src src' dst dst' cen r k hs hd)

/-- The idealized kernel runs and leaves its arguments unchanged. -/
theorem frame_ki : Cert.frame_KernelIdeal := fun m ρ _ =>
  Cert.KernelIdeal.Body.frame m ρ (fun src src' dst dst' cen r k hs hd => Cert.KernelIdeal.Pay.stored_congr_row src src' dst dst' cen r k hs hd)

/-- The idealized reference runs and leaves its arguments unchanged: its run, the result dropped. -/
theorem frame_ri : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- From memories agreeing on the arguments both idealized programs end with the result array at `Spec.G` of the
    arguments. -/
theorem algebraic : Cert.algebraic_KernelIdeal_ReferenceIdeal := by
  intro m ρ m' ρ' _ hagree
  refine ⟨fun c => Cert.KernelIdeal.Final.Gk m c, Cert.KernelIdeal.Final.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
